-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x2560000 : Shape := ⟨2, ![2, 2560000]⟩
abbrev S2x32 : Shape := ⟨2, ![2, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x2 .f32) (main_arg1 : IVec S2x2560000 32) (main_arg2 : FVec F S2x32 .f32) (main_arg3 : FVec F S32 .f32) (main_arg4 : FVec F S32x1 .f32) (main_arg5 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x32 .f32 := Host.absf main_arg2
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg4
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg5 main_v13 main_v16
-- ==== Kernel.lean ====
abbrev S100000x2 : Shape := ⟨2, ![100000, 2]⟩
abbrev S2x2560000 : Shape := ⟨2, ![2, 2560000]⟩
abbrev S2x32 : Shape := ⟨2, ![2, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x2560000 : Shape := ⟨2, ![1, 2560000]⟩
abbrev S2560000 : Shape := ⟨1, ![2560000]⟩
abbrev S2660000 : Shape := ⟨1, ![2660000]⟩
abbrev S_ : Shape := ⟨0, ![]⟩
abbrev S2660000x1 : Shape := ⟨2, ![2660000, 1]⟩
abbrev S2660000x2 : Shape := ⟨2, ![2660000, 2]⟩
abbrev S1x32 : Shape := ⟨2, ![1, 32]⟩
abbrev S100000x1 : Shape := ⟨2, ![100000, 1]⟩
abbrev S4000x2 : Shape := ⟨2, ![4000, 2]⟩
abbrev S4000x1 : Shape := ⟨2, ![4000, 1]⟩
abbrev S4000x32 : Shape := ⟨2, ![4000, 32]⟩
abbrev S1x1 : Shape := ⟨2, ![1, 1]⟩

abbrev nBuf : Space → Nat
  | .hbm => 82
  | .vmem => 7
  | .smem => 0
  | _ => 0

abbrev bufTy : (tb : Table) → Fin (tcTables nBuf tb) → BufTy
  | .hbm, ⟨0, _⟩ => ⟨S100000x2, .f32⟩
  | .hbm, ⟨1, _⟩ => ⟨S2x2560000, .i32⟩
  | .hbm, ⟨2, _⟩ => ⟨S2x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S100000, .i32⟩
  | .hbm, ⟨7, _⟩ => ⟨S1x2560000, .i32⟩
  | .hbm, ⟨8, _⟩ => ⟨S2560000, .i32⟩
  | .hbm, ⟨9, _⟩ => ⟨S2660000, .i32⟩
  | .hbm, ⟨10, _⟩ => ⟨S1x2560000, .i32⟩
  | .hbm, ⟨11, _⟩ => ⟨S2560000, .i32⟩
  | .hbm, ⟨12, _⟩ => ⟨S2660000, .i32⟩
  | .hbm, ⟨13, _⟩ => ⟨S_, .f32⟩
  | .hbm, ⟨14, _⟩ => ⟨S2660000, .f32⟩
  | .hbm, ⟨15, _⟩ => ⟨S_, .f32⟩
  | .hbm, ⟨16, _⟩ => ⟨S100000, .f32⟩
  | .hbm, ⟨17, _⟩ => ⟨S2660000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S2660000, .i32⟩
  | .hbm, ⟨29, _⟩ => ⟨S2660000, .i1⟩
  | .hbm, ⟨30, _⟩ => ⟨S_, .i32⟩
  | .hbm, ⟨31, _⟩ => ⟨S2660000, .i32⟩
  | .hbm, ⟨32, _⟩ => ⟨S2660000, .i32⟩
  | .hbm, ⟨33, _⟩ => ⟨S2660000, .i32⟩
  | .hbm, ⟨34, _⟩ => ⟨S2660000x1, .i32⟩
  | .hbm, ⟨35, _⟩ => ⟨S2660000, .f32⟩
  | .hbm, ⟨36, _⟩ => ⟨S_, .i32⟩
  | .hbm, ⟨37, _⟩ => ⟨S2660000, .i32⟩
  | .hbm, ⟨38, _⟩ => ⟨S2660000, .i1⟩
  | .hbm, ⟨39, _⟩ => ⟨S_, .i32⟩
  | .hbm, ⟨40, _⟩ => ⟨S2660000, .i32⟩
  | .hbm, ⟨41, _⟩ => ⟨S2660000, .i32⟩
  | .hbm, ⟨42, _⟩ => ⟨S2660000, .i32⟩
  | .hbm, ⟨43, _⟩ => ⟨S2660000x1, .i32⟩
  | .hbm, ⟨44, _⟩ => ⟨S2660000, .f32⟩
  | .hbm, ⟨45, _⟩ => ⟨S2660000, .f32⟩
  | .hbm, ⟨46, _⟩ => ⟨S2660000x1, .f32⟩
  | .hbm, ⟨47, _⟩ => ⟨S_, .i32⟩
  | .hbm, ⟨48, _⟩ => ⟨S2660000, .i32⟩
  | .hbm, ⟨49, _⟩ => ⟨S2660000, .i1⟩
  | .hbm, ⟨50, _⟩ => ⟨S_, .i32⟩
  | .hbm, ⟨51, _⟩ => ⟨S2660000, .i32⟩
  | .hbm, ⟨52, _⟩ => ⟨S2660000, .i32⟩
  | .hbm, ⟨53, _⟩ => ⟨S2660000, .i32⟩
  | .hbm, ⟨54, _⟩ => ⟨S2660000x1, .i32⟩
  | .hbm, ⟨55, _⟩ => ⟨S2660000x2, .f32⟩
  | .hbm, ⟨56, _⟩ => ⟨S2660000x2, .f32⟩
  | .hbm, ⟨57, _⟩ => ⟨S2660000x2, .f32⟩
  | .hbm, ⟨58, _⟩ => ⟨S_, .f32⟩
  | .hbm, ⟨59, _⟩ => ⟨S100000x2, .f32⟩
  | .hbm, ⟨60, _⟩ => ⟨S2660000x1, .i32⟩
  | .hbm, ⟨61, _⟩ => ⟨S100000x2, .f32⟩
  | .hbm, ⟨62, _⟩ => ⟨S1x32, .f32⟩
  | .hbm, ⟨63, _⟩ => ⟨S100000x1, .f32⟩
  | .hbm, ⟨64, _⟩ => ⟨S2660000x1, .f32⟩
  | .hbm, ⟨65, _⟩ => ⟨S_, .i32⟩
  | .hbm, ⟨66, _⟩ => ⟨S2660000, .i32⟩
  | .hbm, ⟨67, _⟩ => ⟨S2660000, .i1⟩
  | .hbm, ⟨68, _⟩ => ⟨S_, .i32⟩
  | .hbm, ⟨69, _⟩ => ⟨S2660000, .i32⟩
  | .hbm, ⟨70, _⟩ => ⟨S2660000, .i32⟩
  | .hbm, ⟨71, _⟩ => ⟨S2660000, .i32⟩
  | .hbm, ⟨72, _⟩ => ⟨S2660000x1, .i32⟩
  | .hbm, ⟨73, _⟩ => ⟨S2660000x1, .f32⟩
  | .hbm, ⟨74, _⟩ => ⟨S2660000x1, .f32⟩
  | .hbm, ⟨75, _⟩ => ⟨S_, .f32⟩
  | .hbm, ⟨76, _⟩ => ⟨S100000x1, .f32⟩
  | .hbm, ⟨77, _⟩ => ⟨S2660000x1, .i32⟩
  | .hbm, ⟨78, _⟩ => ⟨S100000x1, .f32⟩
  | .hbm, ⟨79, _⟩ => ⟨S1x1, .f32⟩
  | .hbm, ⟨80, _⟩ => ⟨S100000x1, .f32⟩
  | .hbm, ⟨81, _⟩ => ⟨S100000x1, .f32⟩
  | .local _ .vmem, ⟨0, _⟩ => ⟨S4000x2, .f32⟩
  | .local _ .vmem, ⟨1, _⟩ => ⟨S4000x2, .f32⟩
  | .local _ .vmem, ⟨2, _⟩ => ⟨S2x32, .f32⟩
  | .local _ .vmem, ⟨3, _⟩ => ⟨S1x32, .f32⟩
  | .local _ .vmem, ⟨4, _⟩ => ⟨S32x1, .f32⟩
  | .local _ .vmem, ⟨5, _⟩ => ⟨S4000x1, .f32⟩
  | .local _ .vmem, ⟨6, _⟩ => ⟨S4000x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x2560000_S1x2560000_0_0 : S2x2560000.Slices ![0, 0] S1x2560000
  shapeCasts_S1x2560000_S2560000 : S1x2560000.ShapeCasts S2560000
  concatenates_S2560000_S100000_S2660000_d0 : Shape.Concatenates [S2560000, S100000] S2660000 0
  slices_S2x2560000_S1x2560000_1_0 : S2x2560000.Slices ![1, 0] S1x2560000
  bcast_S_S2660000 : S_.BroadcastsInDim S2660000 (![] : Fin 0 → Fin S2660000.rank)
  bcast_S_S100000 : S_.BroadcastsInDim S100000 (![] : Fin 0 → Fin S100000.rank)
  bcast_S2660000_S2660000x1_0 : S2660000.BroadcastsInDim S2660000x1 (![0] : Fin 1 → Fin S2660000x1.rank)
  bcast_S2660000x1_S2660000x2_0_1 : S2660000x1.BroadcastsInDim S2660000x2 (![0, 1] : Fin 2 → Fin S2660000x2.rank)
  bcast_S_S100000x2 : S_.BroadcastsInDim S100000x2 (![] : Fin 0 → Fin S100000x2.rank)
  shapeCasts_S32_S1x32 : S32.ShapeCasts S1x32
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  bitsLt_bf16_f32 : FTy.bits .bf16 < FTy.bits .f32
  inb_S2x32_S2x32_0_0 : ∀ a, (![0, 0] : Fin 2 → Nat) a + S2x32.size a ≤ S2x32.size a
  h_S2x32 : 0 < S2x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x1_S32x1_0_0 : ∀ a, (![0, 0] : Fin 2 → Nat) a + S32x1.size a ≤ S32x1.size a
  h_S32x1 : 0 < S32x1.numel
  inb_S4000x1_S4000x1_0_0 : ∀ a, (![0, 0] : Fin 2 → Nat) a + S4000x1.size a ≤ S4000x1.size a
  h_S4000x1 : 0 < S4000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S2660000x1_S2660000_n_0_0_1_wf : ScatterDims.WF S100000 S2660000x1 S2660000 [] [0] [0] 1
  gather_S100000_S2660000x1_S2660000_n_0_n_n_0_1_1_wf : GatherDims.WF S100000 S2660000x1 S2660000 [] [0] [] [0] [] 1 ![1]
  gather_S100000x2_S2660000x1_S2660000x2_1_0_n_n_0_1_12_wf : GatherDims.WF S100000x2 S2660000x1 S2660000x2 [1] [0] [] [0] [] 1 ![1, 2]
  scatter_S100000x2_S2660000x1_S2660000x2_1_0_0_1_wf : ScatterDims.WF S100000x2 S2660000x1 S2660000x2 [1] [0] [0] 1
  dot_S4000x2_S2x32_S4000x32_1_0_0_1_n_n_wf : DotDims.WF S4000x2 S2x32 S4000x32 [1] [0] [0] [1] [] []
  dot_S4000x32_S32x1_S4000x1_1_0_0_1_n_n_wf : DotDims.WF S4000x32 S32x1 S4000x1 [1] [0] [0] [1] [] []
  gather_S100000x1_S2660000x1_S2660000x1_1_0_n_n_0_1_11_wf : GatherDims.WF S100000x1 S2660000x1 S2660000x1 [1] [0] [] [0] [] 1 ![1, 1]
  scatter_S100000x1_S2660000x1_S2660000x1_1_0_0_1_wf : ScatterDims.WF S100000x1 S2660000x1 S2660000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S100000x2.size a
  hwx0_0 : ∀ i : grid0.Coords, EltTy.bits .f32 = 32 ∨ (Rect.block (s := S100000x2) S4000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x32.size a ≤ S2x32.size a
  hwx0_1 : ∀ i : grid0.Coords, EltTy.bits .f32 = 32 ∨ (Rect.block (s := S2x32) S2x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S100000x1.size a
  hwx0_4 : ∀ i : grid0.Coords, EltTy.bits .f32 = 32 ∨ (Rect.block (s := S100000x1) S4000x1.size (cc0_transform_4 i) (hinb0_4 i)).WholeWords (EltTy.packing .f32)

variable [Facts₀]

def scatter_S100000_S2660000x1_S2660000_n_0_0_1 : ScatterDims S100000 S2660000x1 S2660000 where
  updateWindowDims := []
  insertedWindowDims := [0]
  scatterDimsToOperandDims := [0]
  indexVectorDim := 1
  wf := scatter_S100000_S2660000x1_S2660000_n_0_0_1_wf
def gather_S100000_S2660000x1_S2660000_n_0_n_n_0_1_1 : GatherDims S100000 S2660000x1 S2660000 where
  offsetDims := []
  collapsedSliceDims := [0]
  operandBatchingDims := []
  startIndicesBatchingDims := []
  startIndexMap := [0]
  indexVectorDim := 1
  sliceSizes := ![1]
  wf := gather_S100000_S2660000x1_S2660000_n_0_n_n_0_1_1_wf
def gather_S100000x2_S2660000x1_S2660000x2_1_0_n_n_0_1_12 : GatherDims S100000x2 S2660000x1 S2660000x2 where
  offsetDims := [1]
  collapsedSliceDims := [0]
  operandBatchingDims := []
  startIndicesBatchingDims := []
  startIndexMap := [0]
  indexVectorDim := 1
  sliceSizes := ![1, 2]
  wf := gather_S100000x2_S2660000x1_S2660000x2_1_0_n_n_0_1_12_wf
def scatter_S100000x2_S2660000x1_S2660000x2_1_0_0_1 : ScatterDims S100000x2 S2660000x1 S2660000x2 where
  updateWindowDims := [1]
  insertedWindowDims := [0]
  scatterDimsToOperandDims := [0]
  indexVectorDim := 1
  wf := scatter_S100000x2_S2660000x1_S2660000x2_1_0_0_1_wf
def dot_S4000x2_S2x32_S4000x32_1_0_0_1_n_n : DotDims S4000x2 S2x32 S4000x32 where
  lhsContracting := [1]
  rhsContracting := [0]
  lhsNonContracting := [0]
  rhsNonContracting := [1]
  lhsBatch := []
  rhsBatch := []
  wf := dot_S4000x2_S2x32_S4000x32_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf
def gather_S100000x1_S2660000x1_S2660000x1_1_0_n_n_0_1_11 : GatherDims S100000x1 S2660000x1 S2660000x1 where
  offsetDims := [1]
  collapsedSliceDims := [0]
  operandBatchingDims := []
  startIndicesBatchingDims := []
  startIndexMap := [0]
  indexVectorDim := 1
  sliceSizes := ![1, 1]
  wf := gather_S100000x1_S2660000x1_S2660000x1_1_0_n_n_0_1_11_wf
def scatter_S100000x1_S2660000x1_S2660000x1_1_0_0_1 : ScatterDims S100000x1 S2660000x1 S2660000x1 where
  updateWindowDims := [1]
  insertedWindowDims := [0]
  scatterDimsToOperandDims := [0]
  indexVectorDim := 1
  wf := scatter_S100000x1_S2660000x1_S2660000x1_1_0_0_1_wf

abbrev win0_0 : Pipeline.Window sig grid0 :=
  Pipeline.Window.ofSpec (Memref.whole main_v42) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S4000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x2 : Shape := ⟨2, ![100000, 2]⟩
abbrev S2x2560000 : Shape := ⟨2, ![2, 2560000]⟩
abbrev S2x32 : Shape := ⟨2, ![2, 32]⟩
abbrev S32 : Shape := ⟨1, ![32]⟩
abbrev S32x1 : Shape := ⟨2, ![32, 1]⟩
abbrev S1 : Shape := ⟨1, ![1]⟩
abbrev S100000x32 : Shape := ⟨2, ![100000, 32]⟩
abbrev S100000 : Shape := ⟨1, ![100000]⟩
abbrev S1x2560000 : Shape := ⟨2, ![1, 2560000]⟩
abbrev S2560000 : Shape := ⟨1, ![2560000]⟩
abbrev S2660000 : Shape := ⟨1, ![2660000]⟩
abbrev S_ : Shape := ⟨0, ![]⟩
abbrev S2660000x1 : Shape := ⟨2, ![2660000, 1]⟩
abbrev S2660000x32 : Shape := ⟨2, ![2660000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x2560000, .i32⟩
  | .hbm, ⟨2, _⟩ => ⟨S2x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S100000x32, .f32⟩
  | .hbm, ⟨7, _⟩ => ⟨S100000, .i32⟩
  | .hbm, ⟨8, _⟩ => ⟨S1x2560000, .i32⟩
  | .hbm, ⟨9, _⟩ => ⟨S2560000, .i32⟩
  | .hbm, ⟨10, _⟩ => ⟨S2660000, .i32⟩
  | .hbm, ⟨11, _⟩ => ⟨S1x2560000, .i32⟩
  | .hbm, ⟨12, _⟩ => ⟨S2560000, .i32⟩
  | .hbm, ⟨13, _⟩ => ⟨S2660000, .i32⟩
  | .hbm, ⟨14, _⟩ => ⟨S_, .f32⟩
  | .hbm, ⟨15, _⟩ => ⟨S2660000, .f32⟩
  | .hbm, ⟨16, _⟩ => ⟨S_, .f32⟩
  | .hbm, ⟨17, _⟩ => ⟨S100000, .f32⟩
  | .hbm, ⟨18, _⟩ => ⟨S2660000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S2660000, .i32⟩
  | .hbm, ⟨30, _⟩ => ⟨S2660000, .i1⟩
  | .hbm, ⟨31, _⟩ => ⟨S_, .i32⟩
  | .hbm, ⟨32, _⟩ => ⟨S2660000, .i32⟩
  | .hbm, ⟨33, _⟩ => ⟨S2660000, .i32⟩
  | .hbm, ⟨34, _⟩ => ⟨S2660000, .i32⟩
  | .hbm, ⟨35, _⟩ => ⟨S2660000x1, .i32⟩
  | .hbm, ⟨36, _⟩ => ⟨S2660000, .f32⟩
  | .hbm, ⟨37, _⟩ => ⟨S_, .i32⟩
  | .hbm, ⟨38, _⟩ => ⟨S2660000, .i32⟩
  | .hbm, ⟨39, _⟩ => ⟨S2660000, .i1⟩
  | .hbm, ⟨40, _⟩ => ⟨S_, .i32⟩
  | .hbm, ⟨41, _⟩ => ⟨S2660000, .i32⟩
  | .hbm, ⟨42, _⟩ => ⟨S2660000, .i32⟩
  | .hbm, ⟨43, _⟩ => ⟨S2660000, .i32⟩
  | .hbm, ⟨44, _⟩ => ⟨S2660000x1, .i32⟩
  | .hbm, ⟨45, _⟩ => ⟨S2660000, .f32⟩
  | .hbm, ⟨46, _⟩ => ⟨S2660000, .f32⟩
  | .hbm, ⟨47, _⟩ => ⟨S2660000x1, .f32⟩
  | .hbm, ⟨48, _⟩ => ⟨S_, .i32⟩
  | .hbm, ⟨49, _⟩ => ⟨S2660000, .i32⟩
  | .hbm, ⟨50, _⟩ => ⟨S2660000, .i1⟩
  | .hbm, ⟨51, _⟩ => ⟨S_, .i32⟩
  | .hbm, ⟨52, _⟩ => ⟨S2660000, .i32⟩
  | .hbm, ⟨53, _⟩ => ⟨S2660000, .i32⟩
  | .hbm, ⟨54, _⟩ => ⟨S2660000, .i32⟩
  | .hbm, ⟨55, _⟩ => ⟨S2660000x1, .i32⟩
  | .hbm, ⟨56, _⟩ => ⟨S2660000x32, .f32⟩
  | .hbm, ⟨57, _⟩ => ⟨S2660000x32, .f32⟩
  | .hbm, ⟨58, _⟩ => ⟨S2660000x32, .f32⟩
  | .hbm, ⟨59, _⟩ => ⟨S_, .f32⟩
  | .hbm, ⟨60, _⟩ => ⟨S100000x32, .f32⟩
  | .hbm, ⟨61, _⟩ => ⟨S2660000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x1, .f32⟩
  | .hbm, ⟨70, _⟩ => ⟨S100000, .i32⟩
  | .hbm, ⟨71, _⟩ => ⟨S1x2560000, .i32⟩
  | .hbm, ⟨72, _⟩ => ⟨S2560000, .i32⟩
  | .hbm, ⟨73, _⟩ => ⟨S2660000, .i32⟩
  | .hbm, ⟨74, _⟩ => ⟨S1x2560000, .i32⟩
  | .hbm, ⟨75, _⟩ => ⟨S2560000, .i32⟩
  | .hbm, ⟨76, _⟩ => ⟨S2660000, .i32⟩
  | .hbm, ⟨77, _⟩ => ⟨S_, .f32⟩
  | .hbm, ⟨78, _⟩ => ⟨S2660000, .f32⟩
  | .hbm, ⟨79, _⟩ => ⟨S_, .f32⟩
  | .hbm, ⟨80, _⟩ => ⟨S100000, .f32⟩
  | .hbm, ⟨81, _⟩ => ⟨S2660000x1, .i32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .i1⟩
  | .hbm, ⟨86, _⟩ => ⟨S100000, .f32⟩
  | .hbm, ⟨87, _⟩ => ⟨S_, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S_, .i32⟩
  | .hbm, ⟨92, _⟩ => ⟨S2660000, .i32⟩
  | .hbm, ⟨93, _⟩ => ⟨S2660000, .i1⟩
  | .hbm, ⟨94, _⟩ => ⟨S_, .i32⟩
  | .hbm, ⟨95, _⟩ => ⟨S2660000, .i32⟩
  | .hbm, ⟨96, _⟩ => ⟨S2660000, .i32⟩
  | .hbm, ⟨97, _⟩ => ⟨S2660000, .i32⟩
  | .hbm, ⟨98, _⟩ => ⟨S2660000x1, .i32⟩
  | .hbm, ⟨99, _⟩ => ⟨S2660000, .f32⟩
  | .hbm, ⟨100, _⟩ => ⟨S_, .i32⟩
  | .hbm, ⟨101, _⟩ => ⟨S2660000, .i32⟩
  | .hbm, ⟨102, _⟩ => ⟨S2660000, .i1⟩
  | .hbm, ⟨103, _⟩ => ⟨S_, .i32⟩
  | .hbm, ⟨104, _⟩ => ⟨S2660000, .i32⟩
  | .hbm, ⟨105, _⟩ => ⟨S2660000, .i32⟩
  | .hbm, ⟨106, _⟩ => ⟨S2660000, .i32⟩
  | .hbm, ⟨107, _⟩ => ⟨S2660000x1, .i32⟩
  | .hbm, ⟨108, _⟩ => ⟨S2660000, .f32⟩
  | .hbm, ⟨109, _⟩ => ⟨S2660000, .f32⟩
  | .hbm, ⟨110, _⟩ => ⟨S2660000x1, .f32⟩
  | .hbm, ⟨111, _⟩ => ⟨S_, .i32⟩
  | .hbm, ⟨112, _⟩ => ⟨S2660000, .i32⟩
  | .hbm, ⟨113, _⟩ => ⟨S2660000, .i1⟩
  | .hbm, ⟨114, _⟩ => ⟨S_, .i32⟩
  | .hbm, ⟨115, _⟩ => ⟨S2660000, .i32⟩
  | .hbm, ⟨116, _⟩ => ⟨S2660000, .i32⟩
  | .hbm, ⟨117, _⟩ => ⟨S2660000, .i32⟩
  | .hbm, ⟨118, _⟩ => ⟨S2660000x1, .i32⟩
  | .hbm, ⟨119, _⟩ => ⟨S2660000x1, .f32⟩
  | .hbm, ⟨120, _⟩ => ⟨S2660000x1, .f32⟩
  | .hbm, ⟨121, _⟩ => ⟨S_, .f32⟩
  | .hbm, ⟨122, _⟩ => ⟨S100000x1, .f32⟩
  | .hbm, ⟨123, _⟩ => ⟨S2660000x1, .i32⟩
  | .hbm, ⟨124, _⟩ => ⟨S100000x1, .f32⟩
  | .hbm, ⟨125, _⟩ => ⟨S1x1, .f32⟩
  | .hbm, ⟨126, _⟩ => ⟨S100000x1, .f32⟩
  | .hbm, ⟨127, _⟩ => ⟨S100000x1, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]

class Facts₀ : Prop where
  slices_S2x2560000_S1x2560000_0_0 : S2x2560000.Slices ![0, 0] S1x2560000
  shapeCasts_S1x2560000_S2560000 : S1x2560000.ShapeCasts S2560000
  concatenates_S2560000_S100000_S2660000_d0 : Shape.Concatenates [S2560000, S100000] S2660000 0
  slices_S2x2560000_S1x2560000_1_0 : S2x2560000.Slices ![1, 0] S1x2560000
  bcast_S_S2660000 : S_.BroadcastsInDim S2660000 (![] : Fin 0 → Fin S2660000.rank)
  bcast_S_S100000 : S_.BroadcastsInDim S100000 (![] : Fin 0 → Fin S100000.rank)
  bcast_S2660000_S2660000x1_0 : S2660000.BroadcastsInDim S2660000x1 (![0] : Fin 1 → Fin S2660000x1.rank)
  bcast_S2660000x1_S2660000x32_0_1 : S2660000x1.BroadcastsInDim S2660000x32 (![0, 1] : Fin 2 → Fin S2660000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x2_S2x32_S100000x32_1_0_0_1_n_n_wf : DotDims.WF S100000x2 S2x32 S100000x32 [1] [0] [0] [1] [] []
  scatter_S100000_S2660000x1_S2660000_n_0_0_1_wf : ScatterDims.WF S100000 S2660000x1 S2660000 [] [0] [0] 1
  gather_S100000_S2660000x1_S2660000_n_0_n_n_0_1_1_wf : GatherDims.WF S100000 S2660000x1 S2660000 [] [0] [] [0] [] 1 ![1]
  gather_S100000x32_S2660000x1_S2660000x32_1_0_n_n_0_1_132_wf : GatherDims.WF S100000x32 S2660000x1 S2660000x32 [1] [0] [] [0] [] 1 ![1, 32]
  scatter_S100000x32_S2660000x1_S2660000x32_1_0_0_1_wf : ScatterDims.WF S100000x32 S2660000x1 S2660000x32 [1] [0] [0] 1
  dot_S100000x32_S32x1_S100000x1_1_0_0_1_n_n_wf : DotDims.WF S100000x32 S32x1 S100000x1 [1] [0] [0] [1] [] []
  gather_S100000x1_S2660000x1_S2660000x1_1_0_n_n_0_1_11_wf : GatherDims.WF S100000x1 S2660000x1 S2660000x1 [1] [0] [] [0] [] 1 ![1, 1]
  scatter_S100000x1_S2660000x1_S2660000x1_1_0_0_1_wf : ScatterDims.WF S100000x1 S2660000x1 S2660000x1 [1] [0] [0] 1

variable [Facts₀]

def dot_S100000x2_S2x32_S100000x32_1_0_0_1_n_n : DotDims S100000x2 S2x32 S100000x32 where
  lhsContracting := [1]
  rhsContracting := [0]
  lhsNonContracting := [0]
  rhsNonContracting := [1]
  lhsBatch := []
  rhsBatch := []
  wf := dot_S100000x2_S2x32_S100000x32_1_0_0_1_n_n_wf
def scatter_S100000_S2660000x1_S2660000_n_0_0_1 : ScatterDims S100000 S2660000x1 S2660000 where
  updateWindowDims := []
  insertedWindowDims := [0]
  scatterDimsToOperandDims := [0]
  indexVectorDim := 1
  wf := scatter_S100000_S2660000x1_S2660000_n_0_0_1_wf
def gather_S100000_S2660000x1_S2660000_n_0_n_n_0_1_1 : GatherDims S100000 S2660000x1 S2660000 where
  offsetDims := []
  collapsedSliceDims := [0]
  operandBatchingDims := []
  startIndicesBatchingDims := []
  startIndexMap := [0]
  indexVectorDim := 1
  sliceSizes := ![1]
  wf := gather_S100000_S2660000x1_S2660000_n_0_n_n_0_1_1_wf
def gather_S100000x32_S2660000x1_S2660000x32_1_0_n_n_0_1_132 : GatherDims S100000x32 S2660000x1 S2660000x32 where
  offsetDims := [1]
  collapsedSliceDims := [0]
  operandBatchingDims := []
  startIndicesBatchingDims := []
  startIndexMap := [0]
  indexVectorDim := 1
  sliceSizes := ![1, 32]
  wf := gather_S100000x32_S2660000x1_S2660000x32_1_0_n_n_0_1_132_wf
def scatter_S100000x32_S2660000x1_S2660000x32_1_0_0_1 : ScatterDims S100000x32 S2660000x1 S2660000x32 where
  updateWindowDims := [1]
  insertedWindowDims := [0]
  scatterDimsToOperandDims := [0]
  indexVectorDim := 1
  wf := scatter_S100000x32_S2660000x1_S2660000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S2660000x1_S2660000x1_1_0_n_n_0_1_11 : GatherDims S100000x1 S2660000x1 S2660000x1 where
  offsetDims := [1]
  collapsedSliceDims := [0]
  operandBatchingDims := []
  startIndicesBatchingDims := []
  startIndexMap := [0]
  indexVectorDim := 1
  sliceSizes := ![1, 1]
  wf := gather_S100000x1_S2660000x1_S2660000x1_1_0_n_n_0_1_11_wf
def scatter_S100000x1_S2660000x1_S2660000x1_1_0_0_1 : ScatterDims S100000x1 S2660000x1 S2660000x1 where
  updateWindowDims := [1]
  insertedWindowDims := [0]
  scatterDimsToOperandDims := [0]
  indexVectorDim := 1
  wf := scatter_S100000x1_S2660000x1_S2660000x1_1_0_0_1_wf

class Facts : Prop extends Facts₀ where

variable [Facts]
-- ==== Proof.KernelHost.lean ====
/-
  The host side of the kernel's program, as functions of the argument arrays.

  Before the region the host builds, from the edge list `x1` (two rows of 2560000 node ids), the source and destination
  index arrays with the 100000 self loops appended, the degree of every node by a scatter-add of ones over the
  destinations, its inverse square root where the degree is positive, and the edge weight
  `norm e = dinv (src e) · dinv (dst e)`. `agg x0 x1` is the first aggregation: the scatter-add over destinations of
  `norm e · x0 (src e)`, an array of the shape of `x0`. After the region the host aggregates once more: `tail x1 x5 P` is
  the scatter-add over destinations of `norm e · P (src e)` plus the bias `x5`.

  Each definition is the composition of the printed host operations, so that the contents of a buffer at the region's
  entry, or at the end of the program, is one of these functions of the launch contents by unfolding.
-/
import proofs.«110646_j89292370084484_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.HandValue

open Cert.KernelIdeal Cert.KernelIdeal.Gen

variable {F : FTy → Type} [FloatOps F]

/-- The sources of the edges: row 0 of the edge list, then every node once (the self loops). -/
def srcIdx (x1 : IVec S2x2560000 32) : IVec S2660000 32 :=
  concatenate S2660000 0 [⟨S2560000, shapeCast S2560000 (extractStridedSlice S1x2560000 ![0, 0] x1 slices_S2x2560000_S1x2560000_0_0) shapeCasts_S1x2560000_S2560000⟩, ⟨S100000, iotaInDim S100000 32 0⟩] concatenates_S2560000_S100000_S2660000_d0

/-- The destinations of the edges: row 1 of the edge list, then every node once. -/
def dstIdx (x1 : IVec S2x2560000 32) : IVec S2660000 32 :=
  concatenate S2660000 0 [⟨S2560000, shapeCast S2560000 (extractStridedSlice S1x2560000 ![1, 0] x1 slices_S2x2560000_S1x2560000_1_0) shapeCasts_S1x2560000_S2560000⟩, ⟨S100000, iotaInDim S100000 32 0⟩] concatenates_S2560000_S100000_S2660000_d0

/-- An index array with its negative entries moved up by the number of nodes (the host's index normalisation). -/
def wrapIdx (v : IVec S2660000 32) : IVec S2660000 32 :=
  select (cmpi .slt v (broadcastInDim S2660000 ![] bcast_S_S2660000 (constantI S_ 32 0#32)))
    (addi v (broadcastInDim S2660000 ![] bcast_S_S2660000 (constantI S_ 32 100000#32))) v

/-- The degree of every node: ones added over the destinations. -/
def deg (x1 : IVec S2x2560000 32) : FVec F S100000 .f32 :=
  Host.scatterAdd (F := F) scatter_S100000_S2660000x1_S2660000_n_0_0_1
    (broadcastInDim S100000 ![] bcast_S_S100000 (constant (F := F) S_ .f32 0x00000000#32))
    (broadcastInDim S2660000x1 ![0] bcast_S2660000_S2660000x1_0 (dstIdx x1))
    (broadcastInDim S2660000 ![] bcast_S_S2660000 (constant (F := F) S_ .f32 0x3F800000#32))

/-- The inverse square root of the degree where it is positive, zero elsewhere. -/
def dinv (x1 : IVec S2x2560000 32) : FVec F S100000 .f32 :=
  select (cmpf (F := F) .ogt (deg x1) (broadcastInDim S100000 ![] bcast_S_S100000 (constant (F := F) S_ .f32 0x00000000#32)))
    (Host.rsqrt (deg (F := F) x1))
    (broadcastInDim S100000 ![] bcast_S_S100000 (id (constant (F := F) S_ .f32 0x00000000#32)))

/-- The weight of every edge: the product of the two end nodes' inverse square root degrees. -/
def norm (x1 : IVec S2x2560000 32) : FVec F S2660000 .f32 :=
  mulf (Host.gather gather_S100000_S2660000x1_S2660000_n_0_n_n_0_1_1 (dinv (F := F) x1) (broadcastInDim S2660000x1 ![0] bcast_S2660000_S2660000x1_0 (wrapIdx (srcIdx x1))))
    (Host.gather gather_S100000_S2660000x1_S2660000_n_0_n_n_0_1_1 (dinv (F := F) x1) (broadcastInDim S2660000x1 ![0] bcast_S2660000_S2660000x1_0 (wrapIdx (dstIdx x1))))

/-- The first aggregation: over the edges into each node, the weight times the source node's row of `x0`. -/
def agg (x0 : FVec F S100000x2 .f32) (x1 : IVec S2x2560000 32) : FVec F S100000x2 .f32 :=
  Host.scatterAdd (F := F) scatter_S100000x2_S2660000x1_S2660000x2_1_0_0_1
    (broadcastInDim S100000x2 ![] bcast_S_S100000x2 (constant (F := F) S_ .f32 0x00000000#32))
    (broadcastInDim S2660000x1 ![0] bcast_S2660000_S2660000x1_0 (dstIdx x1))
    (mulf (broadcastInDim S2660000x2 ![0, 1] bcast_S2660000x1_S2660000x2_0_1 (broadcastInDim S2660000x1 ![0] bcast_S2660000_S2660000x1_0 (norm (F := F) x1)))
      (Host.gather gather_S100000x2_S2660000x1_S2660000x2_1_0_n_n_0_1_12 x0 (broadcastInDim S2660000x1 ![0] bcast_S2660000_S2660000x1_0 (wrapIdx (srcIdx x1)))))

/-- The second aggregation, of a node column `P`, plus the bias `x5`. -/
def tail (x1 : IVec S2x2560000 32) (x5 : FVec F S1 .f32) (P : FVec F S100000x1 .f32) : FVec F S100000x1 .f32 :=
  addf
    (Host.scatterAdd (F := F) scatter_S100000x1_S2660000x1_S2660000x1_1_0_0_1
      (broadcastInDim S100000x1 ![] bcast_S_S100000x1 (constant (F := F) S_ .f32 0x00000000#32))
      (broadcastInDim S2660000x1 ![0] bcast_S2660000_S2660000x1_0 (dstIdx x1))
      (mulf (broadcastInDim S2660000x1 ![0] bcast_S2660000_S2660000x1_0 (norm (F := F) x1))
        (Host.gather gather_S100000x1_S2660000x1_S2660000x1_1_0_n_n_0_1_11 P (broadcastInDim S2660000x1 ![0] bcast_S2660000_S2660000x1_0 (wrapIdx (srcIdx x1))))))
    (broadcastInDim S100000x1 ![0, 1] bcast_S1x1_S100000x1_0_1 (broadcastInDim S1x1 ![1] bcast_S1_S1x1_1 x5))

variable (m : (ℓ : Loc nD τ sig) → Buf (Elt F) ℓ)

/-- At the region's entry the source index buffer holds `srcIdx` of the edge list. -/
theorem V_main_v3 (c : Dev nD) : (V m c main_v3 : IVec S2660000 32) = srcIdx (m ((c : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results_simp
  repeat (first
    | rw [nullary_result] | rw [unary_result] | rw [binary_result] | rw [ternary_result] | rw [reshape_result]
    | (rw [nullary_result_ne]; rotate_left; decide) | (rw [unary_result_ne]; rotate_left; decide) | (rw [binary_result_ne]; rotate_left; decide) | (rw [ternary_result_ne]; rotate_left; decide) | (rw [reshape_result_ne]; rotate_left; decide))
  rfl

/-- At the region's entry the destination index buffer holds `dstIdx` of the edge list. -/
theorem V_main_v6 (c : Dev nD) : (V m c main_v6 : IVec S2660000 32) = dstIdx (m ((c : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results_simp
  repeat (first
    | rw [nullary_result] | rw [unary_result] | rw [binary_result] | rw [ternary_result] | rw [reshape_result]
    | (rw [nullary_result_ne]; rotate_left; decide) | (rw [unary_result_ne]; rotate_left; decide) | (rw [binary_result_ne]; rotate_left; decide) | (rw [ternary_result_ne]; rotate_left; decide) | (rw [reshape_result_ne]; rotate_left; decide))
  rfl

/-- At the region's entry the edge weight buffer holds `norm` of the edge list. -/
theorem V_main_v29 (c : Dev nD) : (V m c main_v29 : FVec F S2660000 .f32) = norm (m ((c : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results_simp
  repeat (first
    | rw [nullary_result] | rw [unary_result] | rw [binary_result] | rw [ternary_result] | rw [reshape_result]
    | (rw [nullary_result_ne]; rotate_left; decide) | (rw [unary_result_ne]; rotate_left; decide) | (rw [binary_result_ne]; rotate_left; decide) | (rw [ternary_result_ne]; rotate_left; decide) | (rw [reshape_result_ne]; rotate_left; decide))
  rfl

/-- The array the first window stages is the first aggregation of the node features. -/
theorem V_main_v42 (c : Dev nD) : (V m c main_v42 : FVec F S100000x2 .f32)
    = agg (m ((c : Thread nD τ).loc main_arg0)) (m ((c : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results_simp
  repeat (first
    | rw [nullary_result] | rw [unary_result] | rw [binary_result] | rw [ternary_result] | rw [reshape_result]
    | (rw [nullary_result_ne]; rotate_left; decide) | (rw [unary_result_ne]; rotate_left; decide) | (rw [binary_result_ne]; rotate_left; decide) | (rw [ternary_result_ne]; rotate_left; decide) | (rw [reshape_result_ne]; rotate_left; decide))
  rfl

/-- The array the third window stages is the first bias as one row. -/
theorem V_main_v43 (c : Dev nD) : (V m c main_v43 : FVec F S1x32 .f32)
    = shapeCast S1x32 (m ((c : Thread nD τ).loc main_arg3) : FVec F S32 .f32) shapeCasts_S32_S1x32 := by
  dsimp only [Gen.V, Gen.V0]
  simp only [Gen.hostOps0, Gen.hostOps0_1, Gen.hostOps0_2, List.flatten_cons, List.flatten_nil, List.append_nil, List.cons_append, List.nil_append]
  after_results_simp
  repeat (first
    | rw [nullary_result] | rw [unary_result] | rw [binary_result] | rw [ternary_result] | rw [reshape_result]
    | (rw [nullary_result_ne]; rotate_left; decide) | (rw [unary_result_ne]; rotate_left; decide) | (rw [binary_result_ne]; rotate_left; decide) | (rw [ternary_result_ne]; rotate_left; decide) | (rw [reshape_result_ne]; rotate_left; decide))
  rfl

/-- Entry `k` of that row is entry `k` of the bias. -/
theorem V_main_v43_apply (c : Dev nD) (k : Fin 32) :
    (V m c main_v43 : FVec F S1x32 .f32) (ix2 0 k) = (m ((c : Thread nD τ).loc main_arg3) : FVec F S32 .f32) (ix1 k) := by
  rw [V_main_v43]
  exact shapeCast_a_1a_apply _ shapeCasts_S32_S1x32 0 k

end Cert.KernelIdeal.HandValue

end
-- ==== Proof.KernelTail.lean ====
/-
  The host operations after the region.

  After the region the host gathers the region's result column at the edge sources, weights it by `norm`, adds it over the
  edge destinations and adds the second bias: the program's result is `tail` of the edge list, the bias and the region's
  result array. The index and weight buffers it reads were written before the region and the region does not touch them;
  the result array of the region is the one buffer it reads that the region wrote.
-/
import proofs.«110646_j89292370084484_2_alg».proof.Proof.KernelHost

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.HandValue

open Cert.KernelIdeal Cert.KernelIdeal.Gen

variable {F : FTy → Type} [FloatOps F]
variable (m : (ℓ : Loc nD τ sig) → Buf (Elt F) ℓ)

/-- The program's result buffer after the host operations that follow the region, from the region's result array. -/
theorem tail_value (c : Dev nD) :
    (Pipeline.afterTail₀ cfgs (dats m) 0 (V0 m) [hostOps1] c main_v59 : FVec F S100000x1 .f32)
      = tail (m ((c : Thread nD τ).loc main_arg1)) (m ((c : Thread nD τ).loc main_arg5)) ((dats m 0 c).arrAt 4 cfg0.N) := by
  unfold Pipeline.afterTail₀
  show StableHlo.after hostOps1 _ (Proc.devRef .tc main_v59) = _
  generalize hW : Pipeline.withArrays (cfgs 0).spec c (V0 m c) (fun w => (dats m 0 c).arrAt w (cfgs 0).N) = W
  have h29 : (W (Proc.devRef .tc main_v29) : FVec F S2660000 .f32) = norm (m ((c : Thread nD τ).loc main_arg1)) := by
    rw [← hW]
    exact (Pipeline.withArrays_of_ne _ c (V0 m c) _ main_v29 (by exact (by decide : ∀ w, Pipeline.arrRef spec0 w ≠ main_v29))).trans (V_main_v29 m c)
  have h3 : (W (Proc.devRef .tc main_v3) : IVec S2660000 32) = srcIdx (m ((c : Thread nD τ).loc main_arg1)) := by
    rw [← hW]
    exact (Pipeline.withArrays_of_ne _ c (V0 m c) _ main_v3 (by exact (by decide : ∀ w, Pipeline.arrRef spec0 w ≠ main_v3))).trans (V_main_v3 m c)
  have h6 : (W (Proc.devRef .tc main_v6) : IVec S2660000 32) = dstIdx (m ((c : Thread nD τ).loc main_arg1)) := by
    rw [← hW]
    exact (Pipeline.withArrays_of_ne _ c (V0 m c) _ main_v6 (by exact (by decide : ∀ w, Pipeline.arrRef spec0 w ≠ main_v6))).trans (V_main_v6 m c)
  have h5 : (W (Proc.devRef .tc main_arg5) : FVec F S1 .f32) = m ((c : Thread nD τ).loc main_arg5) := by
    rw [← hW]
    exact (Pipeline.withArrays_of_ne _ c (V0 m c) _ main_arg5 (by exact (by decide : ∀ w, Pipeline.arrRef spec0 w ≠ main_arg5))).trans (V_main_arg5 m c)
  have h44 : (W (Proc.devRef .tc main_v44) : FVec F S100000x1 .f32) = (dats m 0 c).arrAt 4 cfg0.N := by
    rw [← hW]
    exact Pipeline.withArrays_arr spec0 launch0.win.arr_inj c _ _ 4
  after_results_simp
  rw [h29, h3, h6, h5, h44]
  rfl

end Cert.KernelIdeal.HandValue

end
-- ==== Proof.KernelBody.lean ====
/-
  The value one grid step stores, read entry by entry on the extended reals.

  The step holds a block of 4000 node rows of width 2 (`x0`), the 2 × 32 weights (`x1`), the bias as one row of
  width 32 (`x2`) and the 32 × 1 weights (`x3`). It forms the product `x0 · x1`, adds the bias row to every row, takes the
  positive part, and multiplies by `x3`. Format changes are the identity on the extended reals and both products
  accumulate into zero, so row `p` of the stored column is
  `∑ k, max ((∑ q, x0 (p, q) · x1 (q, k)) + x2 (0, k)) 0 · x3 (k, 0)`.
-/
import proofs.«110646_j89292370084484_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.HandValue

open Cert.KernelIdeal Cert.KernelIdeal.Gen

/-- The dimension numbers of the first product: rows of the left operand against columns of the right. -/
abbrev D1 : DotDims S4000x2 S2x32 S4000x32 := dot_S4000x2_S2x32_S4000x32_1_0_0_1_n_n
/-- The dimension numbers of the second product. -/
abbrev D2 : DotDims S4000x32 S32x1 S4000x1 := dot_S4000x32_S32x1_S4000x1_1_0_0_1_n_n

theorem D1_lhs0 (i : S4000x32.Idx) (q : D1.contr.Idx) : (D1.lhsIdx i q 0).val = (i 0).val := by
  unfold DotDims.lhsIdx
  rw [dif_neg (show ¬(0 : Fin S4000x2.rank) ∈ D1.lhsBatch by decide), dif_pos (show (0 : Fin S4000x2.rank) ∈ D1.lhsNonContracting by decide)]
  rfl
theorem D1_lhs1 (i : S4000x32.Idx) (q : D1.contr.Idx) : (D1.lhsIdx i q 1).val = (q ⟨0, by decide⟩).val :=
  D1.lhsIdx_val_of_single rfl i q
theorem D1_rhs0 (i : S4000x32.Idx) (q : D1.contr.Idx) : (D1.rhsIdx i q 0).val = (q ⟨0, by decide⟩).val :=
  D1.rhsIdx_val_of_single rfl i q
theorem D1_rhs1 (i : S4000x32.Idx) (q : D1.contr.Idx) : (D1.rhsIdx i q 1).val = (i 1).val := by
  unfold DotDims.rhsIdx
  rw [dif_neg (show ¬(1 : Fin S2x32.rank) ∈ D1.rhsBatch by decide), dif_pos (show (1 : Fin S2x32.rank) ∈ D1.rhsNonContracting by decide)]
  rfl

theorem D2_lhs0 (i : S4000x1.Idx) (q : D2.contr.Idx) : (D2.lhsIdx i q 0).val = (i 0).val := by
  unfold DotDims.lhsIdx
  rw [dif_neg (show ¬(0 : Fin S4000x32.rank) ∈ D2.lhsBatch by decide), dif_pos (show (0 : Fin S4000x32.rank) ∈ D2.lhsNonContracting by decide)]
  rfl
theorem D2_lhs1 (i : S4000x1.Idx) (q : D2.contr.Idx) : (D2.lhsIdx i q 1).val = (q ⟨0, by decide⟩).val :=
  D2.lhsIdx_val_of_single rfl i q
theorem D2_rhs0 (i : S4000x1.Idx) (q : D2.contr.Idx) : (D2.rhsIdx i q 0).val = (q ⟨0, by decide⟩).val :=
  D2.rhsIdx_val_of_single rfl i q
theorem D2_rhs1 (i : S4000x1.Idx) (q : D2.contr.Idx) : (D2.rhsIdx i q 1).val = (i 1).val := by
  unfold DotDims.rhsIdx
  rw [dif_neg (show ¬(1 : Fin S32x1.rank) ∈ D2.rhsBatch by decide), dif_pos (show (1 : Fin S32x1.rank) ∈ D2.rhsNonContracting by decide)]
  rfl

/-- The first product into a zero accumulator, at row `p` and column `k`: the sum over the two input features. -/
theorem dot1_apply (a : FVec Ideal S4000x2 .bf16) (b : FVec Ideal S2x32 .bf16) (p : Fin 4000) (k : Fin 32) :
    matmul D1 none a b (constant (F := Ideal) S4000x32 .f32 0x00000000#32) (ix2 p k)
      = ∑ q : Fin 2, a (ix2 p q) * b (ix2 q k) := by
  refine (Ideal.matmul_constant_zero_apply D1 none a b (ix2 p k)).trans ?_
  rw [← Equiv.sum_comp (contrEquiv1 D1 2 rfl rfl).symm]
  refine Finset.sum_congr rfl fun q _ => ?_
  have hq := contrEquiv1_symm_val D1 2 rfl rfl q
  have el : D1.lhsIdx (ix2 p k) ((contrEquiv1 D1 2 rfl rfl).symm q) = ix2 p q := funext fun ax => Fin.ext (by
    match ax with
    | ⟨0, _⟩ => exact D1_lhs0 _ _
    | ⟨1, _⟩ => exact (D1_lhs1 _ _).trans hq)
  have er : D1.rhsIdx (ix2 p k) ((contrEquiv1 D1 2 rfl rfl).symm q) = ix2 q k := funext fun ax => Fin.ext (by
    match ax with
    | ⟨0, _⟩ => exact (D1_rhs0 _ _).trans hq
    | ⟨1, _⟩ => exact D1_rhs1 _ _)
  rw [el, er]

/-- The second product into a zero accumulator, at row `p`: the sum over the 32 hidden features. -/
theorem dot2_apply (a : FVec Ideal S4000x32 .bf16) (b : FVec Ideal S32x1 .bf16) (p : Fin 4000) :
    matmul D2 none a b (constant (F := Ideal) S4000x1 .f32 0x00000000#32) (ix2 p 0)
      = ∑ k : Fin 32, a (ix2 p k) * b (ix2 k 0) := by
  refine (Ideal.matmul_constant_zero_apply D2 none a b (ix2 p 0)).trans ?_
  rw [← Equiv.sum_comp (contrEquiv1 D2 32 rfl rfl).symm]
  refine Finset.sum_congr rfl fun k _ => ?_
  have hk := contrEquiv1_symm_val D2 32 rfl rfl k
  have el : D2.lhsIdx (ix2 p 0) ((contrEquiv1 D2 32 rfl rfl).symm k) = ix2 p k := funext fun ax => Fin.ext (by
    match ax with
    | ⟨0, _⟩ => exact D2_lhs0 _ _
    | ⟨1, _⟩ => exact (D2_lhs1 _ _).trans hk)
  have er : D2.rhsIdx (ix2 p 0) ((contrEquiv1 D2 32 rfl rfl).symm k) = ix2 k 0 := funext fun ax => Fin.ext (by
    match ax with
    | ⟨0, _⟩ => exact (D2_rhs0 _ _).trans hk
    | ⟨1, _⟩ => exact D2_rhs1 _ _)
  rw [el, er]

/-- Row `p` of what a grid step stores. -/
theorem body_apply (x0 : Vec Ideal S4000x2 .f32) (x1 : Vec Ideal S2x32 .f32) (x2 : Vec Ideal S1x32 .f32)
    (x3 : Vec Ideal S32x1 .f32) (p : Fin 4000) :
    k0_pay1 (F := Ideal) x0 x1 x2 x3 (ix2 p 0)
      = ∑ k : Fin 32, max ((∑ q : Fin 2, x0 (ix2 p q) * x1 (ix2 q k)) + x2 (ix2 0 k)) 0 * x3 (ix2 k 0) := by
  unfold k0_pay1
  refine (dot2_apply _ _ p).trans ?_
  refine Finset.sum_congr rfl fun k _ => ?_
  refine congrArg₂ (· * ·) ?_ rfl
  show max (matmul D1 none (truncf .bf16 (shapeCast S4000x2 x0 shapeCasts_S4000x2_S4000x2) bitsLt_bf16_f32) (truncf .bf16 x1 bitsLt_bf16_f32)
        (constant (F := Ideal) S4000x32 .f32 0x00000000#32) (ix2 p k)
      + broadcastTo S4000x32 (shapeCast S1x32 x2 shapeCasts_S1x32_S1x32) broadcasts_S1x32_S4000x32 (ix2 p k))
    (Ideal.ofBits .f32 0x00000000#32) = _
  rw [Ideal.ofBits_zero_f32, shapeCast_self, shapeCast_self]
  refine congrArg₂ max (congrArg₂ (· + ·) ?_ ?_) rfl
  · exact dot1_apply _ _ p k
  · exact broadcastTo_1b_ab_apply x2 broadcasts_S1x32_S4000x32 p k

/-- The same at any index of the stored column: its second coordinate can only be 0. -/
theorem body_row (x0 : Vec Ideal S4000x2 .f32) (x1 : Vec Ideal S2x32 .f32) (x2 : Vec Ideal S1x32 .f32)
    (x3 : Vec Ideal S32x1 .f32) (y : S4000x1.Idx) :
    k0_pay1 (F := Ideal) x0 x1 x2 x3 y
      = ∑ k : Fin 32, max ((∑ q : Fin 2, x0 (ix2 (y 0) q) * x1 (ix2 q k)) + x2 (ix2 0 k)) 0 * x3 (ix2 k 0) := by
  obtain ⟨p, z, rfl⟩ : ∃ (p : Fin 4000) (z : Fin 1), y = ix2 p z := ⟨y 0, y 1, eq_ix2 y⟩
  obtain rfl : z = 0 := Fin.eq_zero z
  exact body_apply x0 x1 x2 x3 p

end Cert.KernelIdeal.HandValue

end
-- ==== Proof.KernelCover.lean ====
/-
  Which grid step writes which rows of the region's result.

  The region's result column has 100000 rows and is written back in 25 blocks of 4000 rows: grid step `t` writes rows
  `4000 t … 4000 t + 3999`. Every row `n` therefore lies in the block of step `n / 4000`, and every step writes back.
-/
import proofs.«110646_j89292370084484_2_alg».proof.Proof.Gen.KernelIdeal.Frame
import Idealize.ShloMosaic.Lib.Pipeline.Value

noncomputable section

open Idealize.ShloMosaic Idealize.ShloMosaic.TcCoe Idealize.SL.Sem
open Idealize.ShloMosaic.Pipeline (Dat)

namespace Cert.KernelIdeal.HandValue

open Cert.KernelIdeal Cert.KernelIdeal.Gen

/-- Where each window's block sits at grid step `t`: the first and the last window at block row `t`, the others at the
    origin (decided over the 25 steps). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- An index of the result array is in step `t`'s block iff each coordinate is in the block's range. -/
theorem mem_blk4 (t : Fin cfg0.N) (i : S100000x1.Idx) :
    i ∈ ((cfg0.win 4).blk t).view.set ↔ ∀ a : Fin 2, win0_4.index t a * S4000x1.size a ≤ (i a).val ∧ (i a).val < win0_4.index t a * S4000x1.size a + S4000x1.size a := by
  show i ∈ ((View.whole main_v44).slice (win0_4.rect t)).set ↔ _
  rw [View.set_slice_whole, Rect.mem_set_unit]
  exact Iff.rfl

/-- Row `n` lies in the block of step `n / 4000`, and every step writes back. -/
theorem cover4 (i : S100000x1.Idx) :
    ∃ t : Fin cfg0.N, (cfg0.win 4).flush t = true ∧ i ∈ ((cfg0.win 4).blk t).view.set := by
  have hi0 : (i 0).val < 100000 := (i 0).isLt
  have hi1 : (i 1).val < 1 := (i 1).isLt
  have hlt : (i 0).val / 4000 < cfg0.N := Nat.lt_of_lt_of_eq (by omega : (i 0).val / 4000 < 25) N_0.symm
  obtain ⟨-, -, -, -, -, -, -, -, e8, e9⟩ := idx_facts ⟨(i 0).val / 4000, hlt⟩
  refine ⟨⟨(i 0).val / 4000, hlt⟩, flush0_4 _, ?_⟩
  rw [mem_blk4]
  intro a
  match a with
  | ⟨0, _⟩ =>
    show win0_4.index ⟨(i 0).val / 4000, hlt⟩ (0 : Fin 2) * 4000 ≤ (i 0).val ∧ (i 0).val < win0_4.index ⟨(i 0).val / 4000, hlt⟩ (0 : Fin 2) * 4000 + 4000
    rw [e8]; show (i 0).val / 4000 * 4000 ≤ (i 0).val ∧ (i 0).val < (i 0).val / 4000 * 4000 + 4000; omega
  | ⟨1, _⟩ =>
    show win0_4.index ⟨(i 0).val / 4000, hlt⟩ (1 : Fin 2) * 1 ≤ (i 1).val ∧ (i 1).val < win0_4.index ⟨(i 0).val / 4000, hlt⟩ (1 : Fin 2) * 1 + 1
    rw [e9]; omega

end Cert.KernelIdeal.HandValue

end
-- ==== Proof.Spec.lean ====
/-
  The mathematics both programs compute, stated once over plain index functions on the extended reals.

  A two-layer graph convolution over N = 100000 nodes. With the edge list (self loops appended) fixed, one
  aggregation sends a node array `h` to `agg h`, where `(agg h) n = ∑ over edges e into n of norm e · h (src e)`.
  Layer one is `relu (agg (x · W1) + b1)`; layer two is `agg (· · W2) + b2`.

  `proj A W1` is the product of a node array of width 2 with the 2 × 32 weight matrix; `head B b1 W2` is
  `relu (B + b1) · W2`, a node array of width 1. One program forms `head (agg (proj x W1)) b1 W2`, the other
  `head (proj (agg x) W1) b1 W2`; they agree because aggregation is linear and every quantity entering it is a real.
-/
import Idealize.ShloMosaic.PureOps.Ideal
import Idealize.ShloMosaic.Lib.ValueIdx

noncomputable section

namespace Cert.Gcn

open Idealize.ShloMosaic Idealize.ShloMosaic.ValueIdx

/-- A node array of width 2 times the 2 × 32 weights: entry `(n, k)` is `∑ q, A (n, q) · W1 (q, k)`. -/
def proj (A : (⟨2, ![100000, 2]⟩ : Shape).Idx → EReal) (W1 : (⟨2, ![2, 32]⟩ : Shape).Idx → EReal) :
    (⟨2, ![100000, 32]⟩ : Shape).Idx → EReal :=
  fun i => ∑ q : Fin 2, A (ix2 (i 0) q) * W1 (ix2 q (i 1))

/-- `relu (B + b1) · W2`: entry `(n, 0)` is `∑ k, max (B (n, k) + b1 k) 0 · W2 (k, 0)`. -/
def head (B : (⟨2, ![100000, 32]⟩ : Shape).Idx → EReal) (b1 : (⟨1, ![32]⟩ : Shape).Idx → EReal)
    (W2 : (⟨2, ![32, 1]⟩ : Shape).Idx → EReal) : (⟨2, ![100000, 1]⟩ : Shape).Idx → EReal :=
  fun i => ∑ k : Fin 32, max (B (ix2 (i 0) k) + b1 (ix1 k)) 0 * W2 (ix2 k 0)

theorem proj_apply (A : (⟨2, ![100000, 2]⟩ : Shape).Idx → EReal) (W1 : (⟨2, ![2, 32]⟩ : Shape).Idx → EReal)
    (n : Fin 100000) (k : Fin 32) : proj A W1 (ix2 n k) = ∑ q : Fin 2, A (ix2 n q) * W1 (ix2 q k) := rfl

theorem head_apply (B : (⟨2, ![100000, 32]⟩ : Shape).Idx → EReal) (b1 : (⟨1, ![32]⟩ : Shape).Idx → EReal)
    (W2 : (⟨2, ![32, 1]⟩ : Shape).Idx → EReal) (i : (⟨2, ![100000, 1]⟩ : Shape).Idx) :
    head B b1 W2 i = ∑ k : Fin 32, max (B (ix2 (i 0) k) + b1 (ix1 k)) 0 * W2 (ix2 k 0) := rfl

end Cert.Gcn

end
-- ==== Proof.KernelBlocks.lean ====
/-
  From the grid steps' blocks to the region's whole result.

  Grid step `t` (of 25) stages rows `4000 t … 4000 t + 3999` of the aggregated node features, the two weight matrices and the
  bias row whole, and writes back rows `4000 t … 4000 t + 3999` of the result column. Every row lies in exactly the step
  `row / 4000`, so the result array ends as one function of the staged arrays: row `n` is
  `∑ k, max ((∑ q, A (n, q) · W1 (q, k)) + b (0, k)) 0 · W2 (k, 0)`, that is `head (proj A W1) b W2`.
-/
import proofs.«110646_j89292370084484_2_alg».proof.Proof.Gen.KernelIdeal.Frame
import proofs.«110646_j89292370084484_2_alg».proof.Proof.KernelBody
import proofs.«110646_j89292370084484_2_alg».proof.Proof.KernelCover
import proofs.«110646_j89292370084484_2_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.HandValue

open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The four arrays the region stages, as the region finds them, at their shapes over the extended reals. -/
def arr0 (c : Dev nD) : (⟨2, ![100000, 2]⟩ : Shape).Idx → EReal := V m c main_v42
def arr1 (c : Dev nD) : (⟨2, ![2, 32]⟩ : Shape).Idx → EReal := V m c main_arg2
def arr2 (c : Dev nD) : (⟨2, ![1, 32]⟩ : Shape).Idx → EReal := V m c main_v43
def arr3 (c : Dev nD) : (⟨2, ![32, 1]⟩ : Shape).Idx → EReal := V m c main_arg4

/-- The region's result as one function of the arrays the region stages: the dense head of the projected features. -/
def regionOut (c : Dev nD) : (⟨2, ![100000, 1]⟩ : Shape).Idx → EReal :=
  Cert.Gcn.head (Cert.Gcn.proj (arr0 m c) (arr1 m c)) (fun j => arr2 m c (ix2 0 (j 0))) (arr3 m c)

/-- The same with the staged arrays spelt as the region-entry contents. -/
theorem regionOut_eq (c : Dev nD) : regionOut m c
    = Cert.Gcn.head (Cert.Gcn.proj (V m c main_v42) (V m c main_arg2)) (fun j => V m c main_v43 (ix2 0 (j 0))) (V m c main_arg4) := rfl

/-- Row `n` of the region's result. -/
theorem regionOut_apply (c : Dev nD) (i : (⟨2, ![100000, 1]⟩ : Shape).Idx) (n : Fin 100000) (hn : (i 0).val = n.val) :
    regionOut m c i
      = ∑ k : Fin 32, max ((∑ q : Fin 2, arr0 m c (ix2 n q) * arr1 m c (ix2 q k)) + arr2 m c (ix2 0 k)) 0 * arr3 m c (ix2 k 0) := by
  obtain rfl : n = i 0 := Fin.ext hn.symm
  rfl

/-- Reading step `t`'s block of the first window off any array: row `p` is row `4000 t + p`. -/
theorem blk0_read (f : (⟨2, ![100000, 2]⟩ : Shape).Idx → EReal) (t : Fin cfg0.N) (p : Fin 4000) (q : Fin 2) (n : Fin 100000)
    (hn : n.val = t.val * 4000 + p.val) :
    ((cfg0.win 0).blk t).view.read (Elt Ideal) f (ix2 p q) = f (ix2 n q) := by
  obtain ⟨e0, e1, -⟩ := idx_facts t
  show f (((cfg0.win 0).blk t).view.emb (ix2 p q)) = f (ix2 n q)
  refine congrArg f (funext fun a => Fin.ext ?_)
  match a with
  | ⟨0, _⟩ => show win0_0.index t (0 : Fin 2) * 4000 + 1 * p.val = n.val; rw [e0, hn]; omega
  | ⟨1, _⟩ => show win0_0.index t (1 : Fin 2) * 2 + 1 * q.val = q.val; rw [e1]; omega

/-- The second window's block is its whole array. -/
theorem blk1_read (f : (⟨2, ![2, 32]⟩ : Shape).Idx → EReal) (t : Fin cfg0.N) (q : Fin 2) (k : Fin 32) :
    ((cfg0.win 1).blk t).view.read (Elt Ideal) f (ix2 q k) = f (ix2 q k) := by
  obtain ⟨-, -, e2, e3, -⟩ := idx_facts t
  show f (((cfg0.win 1).blk t).view.emb (ix2 q k)) = f (ix2 q k)
  refine congrArg f (funext fun a => Fin.ext ?_)
  match a with
  | ⟨0, _⟩ => show win0_1.index t (0 : Fin 2) * 2 + 1 * q.val = q.val; rw [e2]; omega
  | ⟨1, _⟩ => show win0_1.index t (1 : Fin 2) * 32 + 1 * k.val = k.val; rw [e3]; omega

/-- The third window's block is its whole array. -/
theorem blk2_read (f : (⟨2, ![1, 32]⟩ : Shape).Idx → EReal) (t : Fin cfg0.N) (k : Fin 32) :
    ((cfg0.win 2).blk t).view.read (Elt Ideal) f (ix2 0 k) = f (ix2 0 k) := by
  obtain ⟨-, -, -, -, e4, e5, -⟩ := idx_facts t
  show f (((cfg0.win 2).blk t).view.emb (ix2 0 k)) = f (ix2 0 k)
  refine congrArg f (funext fun a => Fin.ext ?_)
  match a with
  | ⟨0, _⟩ => show win0_2.index t (0 : Fin 2) * 1 + 1 * 0 = 0; rw [e4]
  | ⟨1, _⟩ => show win0_2.index t (1 : Fin 2) * 32 + 1 * k.val = k.val; rw [e5]; omega

/-- The fourth window's block is its whole array. -/
theorem blk3_read (f : (⟨2, ![32, 1]⟩ : Shape).Idx → EReal) (t : Fin cfg0.N) (k : Fin 32) :
    ((cfg0.win 3).blk t).view.read (Elt Ideal) f (ix2 k 0) = f (ix2 k 0) := by
  obtain ⟨-, -, -, -, -, -, e6, e7, -⟩ := idx_facts t
  show f (((cfg0.win 3).blk t).view.emb (ix2 k 0)) = f (ix2 k 0)
  refine congrArg f (funext fun a => Fin.ext ?_)
  match a with
  | ⟨0, _⟩ => show win0_3.index t (0 : Fin 2) * 32 + 1 * k.val = k.val; rw [e6]; omega
  | ⟨1, _⟩ => show win0_3.index t (1 : Fin 2) * 1 + 1 * 0 = 0; rw [e7]

/-- The staged blocks at step `t`, read off the staged arrays. -/
theorem iblk0_apply (c : Dev nD) (t : Fin cfg0.N) (p : Fin 4000) (q : Fin 2) (n : Fin 100000) (hn : n.val = t.val * 4000 + p.val) :
    iblk m c 0 t (ix2 p q) = arr0 m c (ix2 n q) := blk0_read (arr0 m c) t p q n hn
theorem iblk1_apply (c : Dev nD) (t : Fin cfg0.N) (q : Fin 2) (k : Fin 32) :
    iblk m c 1 t (ix2 q k) = arr1 m c (ix2 q k) := blk1_read (arr1 m c) t q k
theorem iblk2_apply (c : Dev nD) (t : Fin cfg0.N) (k : Fin 32) :
    iblk m c 2 t (ix2 0 k) = arr2 m c (ix2 0 k) := blk2_read (arr2 m c) t k
theorem iblk3_apply (c : Dev nD) (t : Fin cfg0.N) (k : Fin 32) :
    iblk m c 3 t (ix2 k 0) = arr3 m c (ix2 k 0) := blk3_read (arr3 m c) t k

/-- What grid step `t` writes back is its block of any array `G` that the stored column agrees with, row by row. -/
theorem flushed4_of (c : Dev nD) (t : Fin cfg0.N) (G : (⟨2, ![100000, 1]⟩ : Shape).Idx → EReal)
    (hG : ∀ j : S4000x1.Idx, k0_pay1 (F := Ideal) (iblk m c 0 t) (iblk m c 1 t) (iblk m c 2 t) (iblk m c 3 t) j
      = G (((cfg0.win 4).blk t).view.emb j)) :
    (dats m 0 c).flushed 4 t = ((cfg0.win 4).blk t).view.read (Elt Ideal) G := by
  show (cfg0.win 4).cut (grid0.coords t) ((dats m 0 c).after 4 t) = _
  rw [after0_4]
  unfold out0_4
  rw [View.canon_unit_zero hz]
  simp only [View.ld_unit_zero (S := S4000x2) hz, View.ld_unit_zero (S := S2x32) hz, View.ld_unit_zero (S := S1x32) hz,
    View.ld_unit_zero (S := S32x1) hz]
  funext j
  exact hG j

/-- Row `j` of the column step `t` stores is row `4000 t + j` of `regionOut`. -/
theorem pay_row (c : Dev nD) (t : Fin cfg0.N) (j : S4000x1.Idx) :
    k0_pay1 (F := Ideal) (iblk m c 0 t) (iblk m c 1 t) (iblk m c 2 t) (iblk m c 3 t) j
      = regionOut m c (((cfg0.win 4).blk t).view.emb j) := by
  have ht : t.val < 25 := Nat.lt_of_lt_of_eq t.isLt N_0
  have hj0 : (j 0).val < 4000 := (j 0).isLt
  obtain ⟨-, -, -, -, -, -, -, -, e8, e9⟩ := idx_facts t
  have hn : ((((cfg0.win 4).blk t).view.emb j) 0).val = t.val * 4000 + (j 0).val := by
    show win0_4.index t (0 : Fin 2) * 4000 + 1 * (j 0).val = _
    rw [e8]; omega
  refine (body_row (iblk m c 0 t) (iblk m c 1 t) (iblk m c 2 t) (iblk m c 3 t) j).trans ?_
  refine Eq.trans ?_ (regionOut_apply m c (((cfg0.win 4).blk t).view.emb j) ⟨t.val * 4000 + (j 0).val, by omega⟩ hn).symm
  refine Finset.sum_congr rfl fun k _ => ?_
  refine congrArg₂ (· * ·) (congrArg₂ max (congrArg₂ (· + ·) (Finset.sum_congr rfl fun q _ => congrArg₂ (· * ·) ?_ ?_) ?_) rfl) ?_
  · exact iblk0_apply m c t (j 0) q _ rfl
  · exact iblk1_apply m c t q k
  · exact iblk2_apply m c t k
  · exact iblk3_apply m c t k

/-- What grid step `t` writes back is its block of rows of `regionOut`. -/
theorem flushed4_eq (c : Dev nD) (t : Fin cfg0.N) :
    (dats m 0 c).flushed 4 t = ((cfg0.win 4).blk t).view.read (Elt Ideal) (regionOut m c) :=
  flushed4_of m c t (regionOut m c) (pay_row m c t)

/-- The result array after the region: the dense head of the projected aggregated features. -/
theorem final4 (c : Dev nD) : (dats m 0 c).arrAt 4 cfg0.N
    = Cert.Gcn.head (Cert.Gcn.proj (V m c main_v42) (V m c main_arg2)) (fun j => V m c main_v43 (ix2 0 (j 0))) (V m c main_arg4) :=
  ((dats m 0 c).arrAt_eq_of_cover 4 (regionOut m c) (fun t _ => flushed4_eq m c t) cover4).trans (regionOut_eq m c)

end Cert.KernelIdeal.HandValue

end
-- ==== Proof.KernelValue.lean ====
/-
  The kernel's program, read: its result as a function of the argument arrays.

  The host aggregates the node features `x` (`agg`), the region turns the aggregated rows into the column
  `head (proj (agg x) W1) b1 W2` — the projection to 32 hidden features, the bias, the positive part and the second weights —,
  and the host aggregates that column once more and adds the second bias (`tail`). The argument arrays end as launched.
-/
import proofs.«110646_j89292370084484_2_alg».proof.Proof.KernelTail
import proofs.«110646_j89292370084484_2_alg».proof.Proof.KernelBlocks

noncomputable section

open Idealize.ShloMosaic Idealize.ShloMosaic.TcCoe Idealize.SL.Sem Idealize.ShloMosaic.ValueIdx
open Idealize.ShloMosaic.Pipeline (Dat)

namespace Cert.KernelIdeal.HandValue

open Cert.KernelIdeal Cert.KernelIdeal.Gen

variable (m : (ℓ : Loc nD τ sig) → Buf (Elt Ideal) ℓ) (ρ : Dev nD → PrngReg)

/-- The bias row the region stages, read back as the bias. -/
theorem bias_row (c : Dev nD) :
    (fun j : (⟨1, ![32]⟩ : Shape).Idx => (V m c main_v43 : FVec Ideal S1x32 .f32) (ix2 0 (j 0)))
      = (m ((c : Thread nD τ).loc main_arg3) : FVec Ideal S32 .f32) :=
  funext fun j => (V_main_v43_apply m c (j 0)).trans (congrArg (m ((c : Thread nD τ).loc main_arg3) : FVec Ideal S32 .f32) (eq_ix1 j).symm)

/-- The program's result buffer at the end, as a function of the launch contents. -/
theorem result_value (c : Dev nD) :
    (Pipeline.afterTail₀ cfgs (dats m) 0 (V0 m) [hostOps1] c main_v59 : FVec Ideal S100000x1 .f32)
      = tail (F := Ideal) (m ((c : Thread nD τ).loc main_arg1)) (m ((c : Thread nD τ).loc main_arg5))
          (Cert.Gcn.head (Cert.Gcn.proj (agg (F := Ideal) (m ((c : Thread nD τ).loc main_arg0)) (m ((c : Thread nD τ).loc main_arg1)))
              (m ((c : Thread nD τ).loc main_arg2))) (m ((c : Thread nD τ).loc main_arg3)) (m ((c : Thread nD τ).loc main_arg4))) := by
  rw [tail_value m c, final4 m c, bias_row m c, V_main_v42 m c, V_main_arg2 m c, V_main_arg4 m c]

/-- Every execution of the program on the TensorCores terminates with the result buffer at `tail` of the region's value of
    the aggregated features, and with every argument array as launched. -/
theorem run : θ_run (defs (F := Ideal)) (onTc (τ := τ) (main (F := Ideal))) ⟨m, fun _ => 0, ρ⟩ (fun r => ∀ c : Dev nD,
      r.2.mem ((c.tc : Thread nD τ).loc main_v59)
        = tail (F := Ideal) (m ((c.tc : Thread nD τ).loc main_arg1)) (m ((c.tc : Thread nD τ).loc main_arg5))
            (Cert.Gcn.head (Cert.Gcn.proj (agg (F := Ideal) (m ((c.tc : Thread nD τ).loc main_arg0)) (m ((c.tc : Thread nD τ).loc main_arg1)))
              (m ((c.tc : Thread nD τ).loc main_arg2))) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v59 (Pipeline.mem_restRefs_of main_v59 (by decide) (by decide))).trans (result_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans ((((dats m) 0 c).arrAt_in 1 rfl _).trans ((A_eq m c 1).trans (V_main_arg2 m c))),
      (((h c).2 main_arg3 (Pipeline.mem_restRefs_of main_arg3 (by decide) (by decide))).trans (W_main_arg3 m (dats m) c)),
      ((h c).1 3).trans ((((dats m) 0 c).arrAt_in 3 rfl _).trans ((A_eq m c 3).trans (V_main_arg4 m c))),
      (((h c).2 main_arg5 (Pipeline.mem_restRefs_of main_arg5 (by decide) (by decide))).trans (W_main_arg5 m (dats m) c))⟩)
    (run_main m ρ)

end Cert.KernelIdeal.HandValue

end
-- ==== Proof.RefValue.lean ====
/-
  The reference program's result, written as the second aggregation applied to the first layer's output.

  The reference forms `v48 = relu (v43 + b1) · W2` from its first aggregation `v43`, then gathers `v48` along the
  edges, weights it, scatters it back onto the nodes and adds `b2`. `tail` is that last stage as a function of the
  node array it aggregates; `result_eq` says the reference's result is `tail` of `head v43 b1 W2`.
-/
import proofs.«110646_j89292370084484_2_alg».proof.Proof.RefReadP
import proofs.«110646_j89292370084484_2_alg».proof.Proof.Spec

noncomputable section

namespace Cert.ReferenceIdeal.HandValue

open Cert.ReferenceIdeal Cert.ReferenceIdeal.Gen Idealize.ShloMosaic Idealize.ShloMosaic.TcCoe Idealize.SL.Sem
  Idealize.ShloMosaic.StableHlo Idealize.ShloMosaic.ValueIdx

/-- The second aggregation and the output bias: gather the node array `P` at the edges' sources, weight each edge,
    scatter-add at the edges' targets into zeros, add `b2`. -/
def tail (x1 : IVec S2x2560000 32) (x5 : FVec Ideal S1 .f32) (P : FVec Ideal S100000x1 .f32) : FVec Ideal S100000x1 .f32 :=
  addf (Host.scatterAdd scatter_S100000x1_S2660000x1_S2660000x1_1_0_0_1 (ReadP.val_main_v88 (F := Ideal))
      (ReadP.val_main_v89 (F := Ideal) x1)
      (mulf (ReadP.val_main_v79 (F := Ideal) x1)
        (Host.gather gather_S100000x1_S2660000x1_S2660000x1_1_0_n_n_0_1_11 P (ReadP.val_main_v85 (F := Ideal) x1))))
    (ReadP.val_main_v92 (F := Ideal) x5)

/-- The reference's second-layer input is `relu (v43 + b1) · W2`, entry by entry. -/
theorem v48_eq (x0 : FVec Ideal S100000x2 .f32) (x1 : IVec S2x2560000 32) (x2 : FVec Ideal S2x32 .f32)
    (x3 : FVec Ideal S32 .f32) (x4 : FVec Ideal S32x1 .f32) :
    ReadP.val_main_v48 (F := Ideal) x0 x1 x2 x3 x4 = Cert.Gcn.head (ReadP.val_main_v43 (F := Ideal) x0 x1 x2) x3 x4 := by
  funext i
  obtain ⟨n, z, rfl⟩ : ∃ (n : Fin 100000) (z : Fin 1), i = ix2 n z := ⟨i 0, i 1, eq_ix2 i⟩
  obtain rfl : z = 0 := Fin.fin_one_eq_zero z
  rw [ReadP.val_main_v48_apply]
  show _ = ∑ k : Fin 32, max (ReadP.val_main_v43 (F := Ideal) x0 x1 x2 (ix2 n k) + x3 (ix1 k)) 0 * x4 (ix2 k 0)
  refine Finset.sum_congr rfl fun k _ => ?_
  have e1 : ReadP.lidx_main_v48 (ix2 n 0) k = ix2 n k :=
    funext fun a => Fin.ext (by match a with | ⟨0, _⟩ => rfl | ⟨1, _⟩ => rfl)
  have e2 : ReadP.ridx_main_v48 (ix2 n 0) k = ix2 k 0 :=
    funext fun a => Fin.ext (by match a with | ⟨0, _⟩ => rfl | ⟨1, _⟩ => rfl)
  have e3 : ReadP.idx_main_v44 (ReadP.idx_main_v45 (ix2 n k)) = ix1 k :=
    funext fun a => Fin.ext (by match a with | ⟨0, _⟩ => rfl)
  rw [e1, e2, ReadP.val_main_v47_apply, ReadP.val_main_v46_apply, ReadP.val_main_call1_v0_apply,
    ReadP.val_main_call1_cst_apply, ReadP.val_main_v45_apply, ReadP.val_main_v44_apply, e3]
  simp only [Ideal.maximumf_def, Ideal.addf_def, Ideal.ofBits_def, Ideal.ofBits_zero_f32]

/-- The reference's result is the second aggregation of `relu (v43 + b1) · W2`. -/
theorem result_eq (x0 : FVec Ideal S100000x2 .f32) (x1 : IVec S2x2560000 32) (x2 : FVec Ideal S2x32 .f32)
    (x3 : FVec Ideal S32 .f32) (x4 : FVec Ideal S32x1 .f32) (x5 : FVec Ideal S1 .f32) :
    ReadP.val_main_v93 (F := Ideal) x0 x1 x2 x3 x4 x5
      = tail x1 x5 (Cert.Gcn.head (ReadP.val_main_v43 (F := Ideal) x0 x1 x2) x3 x4) := by
  unfold ReadP.val_main_v93 ReadP.val_main_v90 ReadP.val_main_v87 ReadP.val_main_v86 tail
  rw [v48_eq]

end Cert.ReferenceIdeal.HandValue

end
-- ==== Proof.RefRun.lean ====
/-
  The reference program's run, stated with its result as the second aggregation of `relu (v43 + b1) · W2`: every
  execution ends with the result buffer at `tail … (head v43 b1 W2)` of the arguments' launch contents, and the
  arguments unchanged.
-/
import proofs.«110646_j89292370084484_2_alg».proof.Proof.RefValue

noncomputable section

namespace Cert.ReferenceIdeal.HandValue

open Cert.ReferenceIdeal Cert.ReferenceIdeal.Gen Idealize.ShloMosaic Idealize.ShloMosaic.TcCoe Idealize.SL.Sem
  Idealize.ShloMosaic.StableHlo Idealize.ShloMosaic.ValueIdx

theorem run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v93)
        = tail (m' ((c.tc : Thread nD τ).loc main_arg1)) (m' ((c.tc : Thread nD τ).loc main_arg5))
            (Cert.Gcn.head (ReadP.val_main_v43 (F := Ideal) (m' ((c.tc : Thread nD τ).loc main_arg0))
              (m' ((c.tc : Thread nD τ).loc main_arg1)) (m' ((c.tc : Thread nD τ).loc main_arg2)))
              (m' ((c.tc : Thread nD τ).loc main_arg3)) (m' ((c.tc : Thread nD τ).loc main_arg4)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run (defs (F := Ideal)) _ _).mono
    (fun _ h c => ⟨((h c).1.trans (ReadP.val_main_v93_eq (F := Ideal) m' c)).trans (result_eq _ _ _ _ _ _), (h c).2⟩)
    (ValueP.run (F := Ideal) m' ρ')

end Cert.ReferenceIdeal.HandValue

end
-- ==== Proof.RefFinite.lean ====
/-
  The edge weights are real numbers, whatever the edge list holds.

  A node's degree is a scatter-add of the real number one into zeros: a finite sum of ones, a real number `d`. Its
  weight `d > 0 ? 1/√d : 0` is then real: the reciprocal square root of a positive real is real, and the other branch
  is zero. An edge's weight is the product of two such entries, read at whatever nodes the edge names; a gather only
  re-reads entries of its operand, so no fact about the indices is needed.
-/
import proofs.«110646_j89292370084484_2_alg».proof.Proof.RefReadP

noncomputable section

namespace Cert.ReferenceIdeal.HandValue

open Cert.ReferenceIdeal Cert.ReferenceIdeal.Gen Idealize.ShloMosaic Idealize.ShloMosaic.TcCoe Idealize.SL.Sem
  Idealize.ShloMosaic.StableHlo Idealize.ShloMosaic.ValueIdx

/-- A finite sum of real numbers, formed in the extended reals, is a real number. -/
theorem sum_real {ι : Type} (s : Finset ι) (f : ι → EReal) (hf : ∀ j ∈ s, ∃ r : ℝ, f j = (r : EReal)) :
    ∃ r : ℝ, ∑ j ∈ s, f j = (r : EReal) := by
  classical
  induction s using Finset.induction_on with
  | empty => exact ⟨0, by simp⟩
  | insert a s ha ih =>
    obtain ⟨r1, h1⟩ := hf a (Finset.mem_insert_self a s)
    obtain ⟨r2, h2⟩ := ih (fun j hj => hf j (Finset.mem_insert_of_mem hj))
    exact ⟨r1 + r2, by rw [Finset.sum_insert ha, h1, h2, EReal.coe_add]⟩

/-- The pattern `0x3F800000` denotes the real number one. -/
theorem ofBits_one_f32 : Ideal.ofBits .f32 0x3F800000#32 = ((1 : ℝ) : EReal) := by
  simp [Ideal.ofBits, Ideal.ieee]
  exact_mod_cast (by norm_num : (8388608 : ℝ) * (2 ^ 23)⁻¹ = 1)

/-- A scatter-add of real updates into a real operand is real at every index. -/
theorem scatterAdd_real {s si su : Shape} {w : Nat} (d : ScatterDims s si su) (x : FVec Ideal s .f32) (idx : IVec si w)
    (upd : FVec Ideal su .f32) (hx : ∀ i, ∃ r : ℝ, x i = (r : EReal)) (hu : ∀ j, ∃ r : ℝ, upd j = (r : EReal)) (i : s.Idx) :
    ∃ r : ℝ, Host.scatterAdd d x idx upd i = (r : EReal) := by
  obtain ⟨r1, h1⟩ := hx i
  obtain ⟨r2, h2⟩ := sum_real (Finset.univ.filter (fun j => d.resultIdx? j idx = some i)) upd (fun j _ => hu j)
  refine ⟨r1 + r2, ?_⟩
  show x i + ∑ j ∈ Finset.univ.filter (fun j => d.resultIdx? j idx = some i), upd j = _
  rw [h1, h2, EReal.coe_add]

/-- Where the degree `d` is a real number, `d > 0 ? rsqrt d : 0` is a real number. -/
theorem dinv_real (d z1 z2 : EReal) (hd : ∃ r : ℝ, d = (r : EReal)) (h1 : z1 = 0) (h2 : z2 = 0) :
    ∃ r : ℝ, Scalar.select (Ideal.cmp .ogt d z1) (Ideal.rsqrt d) z2 = (r : EReal) := by
  obtain ⟨r, rfl⟩ := hd
  subst h1 h2
  by_cases h : (0 : ℝ) < r
  · have hc : Ideal.cmp .ogt (r : EReal) 0 = 1#1 := by
      have : (0 : EReal) < (r : EReal) := by exact_mod_cast h
      simp [Ideal.cmp, this]
    rw [hc, select_one, Ideal.rsqrt_coe, if_neg (not_lt.2 h.le), if_neg h.ne']
    exact ⟨_, rfl⟩
  · have hc : Ideal.cmp .ogt (r : EReal) 0 = 0#1 := by
      have : ¬ (0 : EReal) < (r : EReal) := by exact_mod_cast h
      simp [Ideal.cmp, this]
    rw [hc, select_zero]
    exact ⟨0, rfl⟩

/-- The reference's degree array is real at every node. -/
theorem v11_real (x1 : IVec S2x2560000 32) (i : S100000.Idx) :
    ∃ r : ℝ, ReadP.val_main_v11 (F := Ideal) x1 i = (r : EReal) := by
  unfold ReadP.val_main_v11
  refine scatterAdd_real _ _ _ _ (fun i => ⟨0, ?_⟩) (fun j => ⟨1, ?_⟩) i
  · rw [ReadP.val_main_v9_apply, ReadP.val_main_cst_0_apply]; exact Ideal.ofBits_zero_f32
  · rw [ReadP.val_main_v8_apply, ReadP.val_main_cst_apply]; exact ofBits_one_f32

/-- The reference's per-node weight `deg > 0 ? rsqrt deg : 0` is real at every node. -/
theorem v15_real (x1 : IVec S2x2560000 32) (i : S100000.Idx) :
    ∃ r : ℝ, ReadP.val_main_v15 (F := Ideal) x1 i = (r : EReal) := by
  rw [ReadP.val_main_v15_apply, ReadP.val_main_v13_apply, ReadP.val_main_v14_apply, Ideal.cmpf_def,
    Ideal.hostUnary_rsqrt_def]
  refine dinv_real _ _ _ (v11_real x1 i)
    (by rw [ReadP.val_main_v12_apply, ReadP.val_main_cst_1_apply]; exact Ideal.ofBits_zero_f32)
    (by rw [ReadP.val_main_call0_v1_apply, ReadP.val_main_call0_v0_apply, ReadP.val_main_cst_2_apply]
        exact Ideal.ofBits_zero_f32)

/-- The edge weight of the first aggregation is a real number at every edge. -/
theorem norm_real (x1 : IVec S2x2560000 32) (e : S2660000.Idx) :
    ∃ r : ℝ, ReadP.val_main_v30 (F := Ideal) x1 e = (r : EReal) := by
  obtain ⟨a, ha⟩ : ∃ r : ℝ, ReadP.val_main_v22 (F := Ideal) x1 e = (r : EReal) := by
    unfold ReadP.val_main_v22 Host.gather
    exact v15_real x1 _
  obtain ⟨b, hb⟩ : ∃ r : ℝ, ReadP.val_main_v29 (F := Ideal) x1 e = (r : EReal) := by
    unfold ReadP.val_main_v29 Host.gather
    exact v15_real x1 _
  exact ⟨a * b, by rw [ReadP.val_main_v30_apply, ha, hb, Ideal.mulf_def, EReal.coe_mul]⟩

/-- The reference computes its edge weights twice, by the same operations of the same argument: the two arrays are
    the same term. -/
theorem norm2_eq (x1 : IVec S2x2560000 32) : ReadP.val_main_v78 (F := Ideal) x1 = ReadP.val_main_v30 (F := Ideal) x1 := rfl

/-- The edge weight of the second aggregation is a real number at every edge. -/
theorem norm2_real (x1 : IVec S2x2560000 32) (e : S2660000.Idx) :
    ∃ r : ℝ, ReadP.val_main_v78 (F := Ideal) x1 e = (r : EReal) := by
  rw [norm2_eq]; exact norm_real x1 e

/-- The same weights as the rank-2 arrays the two aggregations multiply by. -/
theorem v31_real (x1 : IVec S2x2560000 32) (j : S2660000x1.Idx) :
    ∃ r : ℝ, ReadP.val_main_v31 (F := Ideal) x1 j = (r : EReal) := by
  rw [ReadP.val_main_v31_apply]; exact norm_real x1 _
theorem v79_real (x1 : IVec S2x2560000 32) (j : S2660000x1.Idx) :
    ∃ r : ℝ, ReadP.val_main_v79 (F := Ideal) x1 j = (r : EReal) := by
  rw [ReadP.val_main_v79_apply]; exact norm2_real x1 _

end Cert.ReferenceIdeal.HandValue

end
-- ==== Proof.PreFinite.lean ====
/-
  What the precondition gives: it is the conjunction, over the five float arguments, of "every entry's absolute
  value is below +∞". On the extended reals an entry whose absolute value `max a (-a)` is below `⊤` is a real
  number, so the node features `x` and the first weight matrix `W1` are real entry by entry.
-/
import proofs.«110646_j89292370084484_2_alg».proof.Pre_finite_inputs
import Idealize.ShloMosaic.PureOps.Ideal.Laws
import Idealize.ShloMosaic.Lib.ValueIdx
import Idealize.ShloMosaic.Lib.ReduceAll
import Idealize.ShloMosaic.Lib.Affine
import Idealize.ShloMosaic.Lib.Pipeline.Value

noncomputable section

namespace Cert.ReferenceIdeal.HandValue

open Idealize.ShloMosaic Idealize.ShloMosaic.ValueIdx

instance : Subsingleton Cert.Pre_finite_inputs.S_.Idx := ⟨fun a b => funext fun d => d.elim0⟩

/-- The pattern `0x7F800000` denotes `+∞`. -/
theorem ofBits_inf_f32 : Ideal.ofBits .f32 0x7F800000#32 = (⊤ : EReal) := by simp [Ideal.ofBits, Ideal.ieee]

/-- An extended real whose absolute value `max a (-a)` compares below `+∞` is a real number. -/
theorem real_of_abs_lt (a : EReal)
    (h : Ideal.cmp .olt (max a (-a)) (Ideal.ofBits .f32 0x7F800000#32) = 1#1) :
    ∃ r : ℝ, a = (r : EReal) := by
  rw [ofBits_inf_f32] at h
  have h' : max a (-a) < ⊤ := by
    by_contra hn
    simp [Ideal.cmp, hn] at h
  induction a using EReal.rec with
  | bot => simp at h'
  | coe r => exact ⟨r, rfl⟩
  | top => simp at h'

section
variable [hPre_finite_inputs : Cert.Pre_finite_inputs.Facts]
open Cert.Pre_finite_inputs Cert.Pre_finite_inputs.Facts

/-- Under the precondition every entry of `x` and of `W1` is a real number. -/
theorem pre_real (x0 : FVec Ideal S100000x2 .f32) (x1 : IVec S2x2560000 32) (x2 : FVec Ideal S2x32 .f32)
    (x3 : FVec Ideal S32 .f32) (x4 : FVec Ideal S32x1 .f32) (x5 : FVec Ideal S1 .f32)
    (h : Cert.Pre_finite_inputs.fn (F := Ideal) x0 x1 x2 x3 x4 x5 = fun _ => 1#1) :
    (∀ i, ∃ r : ℝ, x0 i = (r : EReal)) ∧ (∀ i, ∃ r : ℝ, x2 i = (r : EReal)) := by
  have h0 := congrFun h ix0
  dsimp only [Cert.Pre_finite_inputs.fn, Cert.Pre_finite_inputs.fn_part1] at h0
  obtain ⟨h1, _⟩ := IntOp.andi_eq_one.1 h0
  obtain ⟨h2, _⟩ := IntOp.andi_eq_one.1 h1
  obtain ⟨h3, _⟩ := IntOp.andi_eq_one.1 h2
  obtain ⟨h4, h5⟩ := IntOp.andi_eq_one.1 h3
  refine ⟨fun i => ?_, fun i => ?_⟩
  · have e := Host.reduce_andi_all _ _ _ _ _ h4 i
    rw [cmpf_apply, broadcastInDim_apply _ _ _ i ix0 (fun a => a.elim0)] at e
    exact real_of_abs_lt _ e
  · have e := Host.reduce_andi_all _ _ _ _ _ h5 i
    rw [cmpf_apply, broadcastInDim_apply _ _ _ i ix0 (fun a => a.elim0)] at e
    exact real_of_abs_lt _ e

end

end Cert.ReferenceIdeal.HandValue

end
-- ==== Proof.Rows.lean ====
/-
  Row gathers and row scatters read at an index.

  `x[idx]` of an array `x : [N, C]` at a column of start indices `idx : [E, 1]` is, at `(e, c)`, the entry
  `x (row e, c)` where `row e` is the start index read signed and clamped into `[0, N − 1]`.  The accumulating
  scatter of updates `u : [E, C]` into `[N, C]` along the same kind of index column adds `u (e, c)` to entry
  `(n, c)` exactly when the start index of `e`, read signed and not clamped, is `n`; an update whose start index
  is outside `[0, N)` is dropped.  So entry `(n, c)` of the result is the operand's entry plus the sum over the
  edges `e` whose index is `n` of `u (e, c)`: a sum over edges alone, the column playing no part in the choice.
-/
import Idealize.ShloMosaic.PureOps.Ideal
import Idealize.ShloMosaic.Lib.ValueIdx

noncomputable section

open scoped BigOperators

namespace Cert.Gcn

open Idealize.ShloMosaic Idealize.ShloMosaic.ValueIdx

/-! ## The gather of rows -/

section Gather
variable {α : Type}

/-- The dimension numbers of `x[idx]` for `x : [N, C]`, `idx : [E, 1]`, result `[E, C]`. -/
abbrev rowsGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index, signed, clamped into `[0, N − 1]`. -/
def rowOf {E w : Nat} (N : Nat) (hN : 0 < N) (idx : IVec ⟨2, ![E, 1]⟩ w) (e : Fin E) : Fin N :=
  ⟨min (idx (ix2 e 0)).toInt.toNat (N - 1), by omega⟩

theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGather N E C wf) x idx (ix2 e c) = x (ix2 (rowOf N hN idx e) c) := by
  unfold Host.gather
  congr 1
  funext a
  refine Fin.ext ?_
  revert a
  refine Fin.forall_fin_two.2 ⟨?_, ?_⟩
  · show (rowsGather N E C wf).start (ix2 e c) idx 0 + (rowsGather N E C wf).batchCoord (ix2 e c) 0
      + (rowsGather N E C wf).offCoord (ix2 e c) 0 = (rowOf N hN idx e).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N E C wf).startIndexMap from List.mem_singleton.mpr rfl)]
    have hsi : (rowsGather N E C wf).siIdx (ix2 e c) ⟨List.idxOf (0 : Fin 2) (rowsGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · show (rowsGather N E C wf).start (ix2 e c) idx 1 + (rowsGather N E C wf).batchCoord (ix2 e c) 1
      + (rowsGather N E C wf).offCoord (ix2 e c) 1 = c.val
    rw [GatherDims.batchCoord_eq_zero _ _ _ List.not_mem_nil]
    unfold GatherDims.start
    rw [dif_neg (show ¬ (1 : Fin 2) ∈ (rowsGather N E C wf).startIndexMap from
      fun h => absurd (List.mem_singleton.mp h) (by decide : ¬ (1 : Fin 2) = 0))]
    unfold GatherDims.offCoord
    rw [dif_pos ((GatherDims.mem_sKept (rowsGather N E C wf) 1).mpr
      ⟨fun h => absurd (List.mem_singleton.mp h) (by decide : ¬ (1 : Fin 2) = 0), List.not_mem_nil⟩)]
    simp only [Nat.zero_add, Nat.add_zero]
    rfl

end Gather

/-! ## The accumulating scatter of rows -/

section Scatter

/-- The dimension numbers of `x.at[idx].add(u)` for `x : [N, C]`, `idx : [E, 1]`, `u : [E, C]`. -/
abbrev rowsScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rows_start0 (idx : IVec ⟨2, ![E, 1]⟩ w) (e : Fin E) (c : Fin C) :
    (rowsScatter N E C wf).start (ix2 e c) idx 0 = (idx (ix2 e 0)).toInt := by
  unfold ScatterDims.start
  rw [dif_pos (show (0 : Fin 2) ∈ (rowsScatter N E C wf).scatterDimsToOperandDims from List.mem_singleton.mpr rfl)]
  have hsi : (rowsScatter N E C wf).siIdx (ix2 e c) ⟨List.idxOf (0 : Fin 2) (rowsScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rows_start1 (idx : IVec ⟨2, ![E, 1]⟩ w) (e : Fin E) (c : Fin C) :
    (rowsScatter N E C wf).start (ix2 e c) idx 1 = 0 := by
  unfold ScatterDims.start
  rw [dif_neg (show ¬ (1 : Fin 2) ∈ (rowsScatter N E C wf).scatterDimsToOperandDims from
    fun h => absurd (List.mem_singleton.mp h) (by decide : ¬ (1 : Fin 2) = 0))]

/-- The operand's axes a window coordinate goes to: the ones that are not inserted. -/
theorem mem_sKept_iff {s si u : Shape} (d : ScatterDims s si u) (a : Fin s.rank) :
    a ∈ d.sKept ↔ a ∉ d.insertedWindowDims := by
  simp [ScatterDims.sKept, Shape.kept, List.mem_filter, List.mem_finRange]

theorem rows_window0 (e : Fin E) (c : Fin C) : (rowsScatter N E C wf).window (ix2 e c) 0 = 0 := by
  unfold ScatterDims.window
  rw [dif_neg (fun h => ((mem_sKept_iff (rowsScatter N E C wf) 0).mp h) (List.mem_singleton.mpr rfl))]

theorem rows_window1 (e : Fin E) (c : Fin C) : (rowsScatter N E C wf).window (ix2 e c) 1 = c.val := by
  unfold ScatterDims.window
  rw [dif_pos ((mem_sKept_iff (rowsScatter N E C wf) 1).mpr
    (fun h => absurd (List.mem_singleton.mp h) (by decide : ¬ (1 : Fin 2) = 0)))]
  rfl

/-- The update at `(e, c)` lands on `(n, c')` exactly when the start index of `e`, read signed, is `n` and the columns agree. -/
theorem rows_resultIdx?_eq_some_iff (idx : IVec ⟨2, ![E, 1]⟩ w) (e : Fin E) (c c' : Fin C) (n : Fin N) :
    (rowsScatter N E C wf).resultIdx? (ix2 e c) idx = some (ix2 n c')
      ↔ (idx (ix2 e 0)).toInt = (n.val : Int) ∧ c = c' := by
  have s0 := rows_start0 wf idx e c
  have s1 := rows_start1 wf idx e c
  have w0 := rows_window0 wf e c
  have w1 := rows_window1 wf e c
  unfold ScatterDims.resultIdx?
  split
  · rename_i h
    rw [Option.some.injEq]
    constructor
    · intro heq
      have h0v : ((rowsScatter N E C wf).start (ix2 e c) idx 0 + ((rowsScatter N E C wf).window (ix2 e c) 0 : Nat)).toNat = n.val :=
        congrArg Fin.val (congrFun heq 0)
      have h1v : ((rowsScatter N E C wf).start (ix2 e c) idx 1 + ((rowsScatter N E C wf).window (ix2 e c) 1 : Nat)).toNat = c'.val :=
        congrArg Fin.val (congrFun heq 1)
      have hh := (h 0).1
      rw [s0, w0] at h0v hh
      rw [s1, w1] at h1v
      exact ⟨by omega, Fin.ext (by omega)⟩
    · rintro ⟨hn, rfl⟩
      funext a
      refine Fin.ext ?_
      match a with
      | ⟨0, _⟩ =>
        show ((rowsScatter N E C wf).start (ix2 e c) idx 0 + ((rowsScatter N E C wf).window (ix2 e c) 0 : Nat)).toNat = n.val
        rw [s0, w0]; omega
      | ⟨1, _⟩ =>
        show ((rowsScatter N E C wf).start (ix2 e c) idx 1 + ((rowsScatter N E C wf).window (ix2 e c) 1 : Nat)).toNat = c.val
        rw [s1, w1]; omega
  · rename_i h
    constructor
    · intro hh; exact absurd hh (by simp)
    · rintro ⟨hn, rfl⟩
      exfalso; apply h
      intro a
      match a with
      | ⟨0, _⟩ =>
        show 0 ≤ (rowsScatter N E C wf).start (ix2 e c) idx 0 + ((rowsScatter N E C wf).window (ix2 e c) 0 : Nat)
          ∧ (rowsScatter N E C wf).start (ix2 e c) idx 0 + ((rowsScatter N E C wf).window (ix2 e c) 0 : Nat) < (N : Int)
        rw [s0, w0]; have := n.isLt; omega
      | ⟨1, _⟩ =>
        show 0 ≤ (rowsScatter N E C wf).start (ix2 e c) idx 1 + ((rowsScatter N E C wf).window (ix2 e c) 1 : Nat)
          ∧ (rowsScatter N E C wf).start (ix2 e c) idx 1 + ((rowsScatter N E C wf).window (ix2 e c) 1 : Nat) < (C : Int)
        rw [s1, w1]; have := c.isLt; omega

/-- THE SCATTER READ AT `(n, c)`: the operand's entry plus the sum, over the edges whose start index is `n`, of the
    update's entry in column `c`. -/
theorem hostScatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowsScatter N E C wf) x idx upd (ix2 n c)
      = x (ix2 n c) + ∑ e : Fin E, if (idx (ix2 e 0)).toInt = (n.val : Int) then upd (ix2 e c) else 0 := by
  unfold Ideal.hostScatterAdd
  congr 1
  rw [Finset.sum_filter, sum_idx2]
  refine Finset.sum_congr rfl fun e _ => ?_
  simp only [rows_resultIdx?_eq_some_iff]
  by_cases hn : (idx (ix2 e 0)).toInt = (n.val : Int)
  · simp only [hn, true_and, if_true]
    rw [Finset.sum_ite_eq' Finset.univ c (fun c' => upd (ix2 e c'))]
    simp only [Finset.mem_univ, if_true]
  · simp only [hn, false_and, if_false, Finset.sum_const_zero]

end Scatter

end Cert.Gcn

end
-- ==== Proof.Linear.lean ====
/-
  Aggregation over edges is linear.

  Fix which edges land on a node (a decidable property `D` of edges), a real weight `w e` per edge, a real row
  `g e q` (q = 0, 1) gathered for each edge, and a real column `W q`.  Then
    `∑ over e with D e of  w e · (∑ q, g e q · W q)   =   ∑ q, (∑ over e with D e of  w e · g e q) · W q`.
  On the reals this is distributivity and an exchange of two finite sums.  On the extended reals it needs every
  term to be a real: with an infinite weight and a row whose products cancel, the left side is `∞ · 0 = 0` while
  the right side adds `+∞` and `−∞`.  The leading `0 +` on both sides is the zero array the sums are added to.
-/
import Mathlib.Data.EReal.Basic
import Mathlib.Algebra.BigOperators.Ring.Finset
import Mathlib.Algebra.BigOperators.Group.Finset.Sigma

noncomputable section

open scoped BigOperators

namespace Cert.Gcn

/-- A finite sum of reals, read in the extended reals, is the sum of the terms read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real-or-zero choice, read in the extended reals. -/
theorem coe_ite (p : Prop) [Decidable p] (a : ℝ) :
    (if p then (a : EReal) else 0) = ((if p then a else 0 : ℝ) : EReal) := by
  split <;> rfl

theorem agg_linear {E : Nat} (D : Fin E → Prop) [DecidablePred D]
    (w : Fin E → EReal) (hw : ∀ e, ∃ r : ℝ, w e = (r : EReal))
    (g : Fin E → Fin 2 → EReal) (hg : ∀ e q, ∃ r : ℝ, g e q = (r : EReal))
    (W : Fin 2 → EReal) (hW : ∀ q, ∃ r : ℝ, W q = (r : EReal)) :
    (0 : EReal) + ∑ e, (if D e then w e * ∑ q, g e q * W q else 0)
      = ∑ q, ((0 : EReal) + ∑ e, (if D e then w e * g e q else 0)) * W q := by
  choose wr hwr using hw
  choose gr hgr using hg
  choose Wr hWr using hW
  simp only [hwr, hgr, hWr, zero_add]
  simp only [← EReal.coe_mul, ← coe_sum, coe_ite]
  rw [EReal.coe_eq_coe_iff]
  simp only [Finset.sum_mul]
  rw [Finset.sum_comm]
  refine Finset.sum_congr rfl fun e _ => ?_
  by_cases h : D e
  · simp only [h, if_true, Finset.mul_sum, mul_assoc]
  · simp only [h, if_false, zero_mul, Finset.sum_const_zero]

end Cert.Gcn

end
-- ==== Proof.Layer1.lean ====
/-
  Layer one, both ways.

  With the edge list fixed, write `dst e` for the start index of edge `e` in the scatter's index column, `srcRow e`
  for the node edge `e` gathers from (its source index wrapped and clamped) and `norm e` for its weight.  One
  program scatters the width-32 rows `norm e · (x · W1) (srcRow e, ·)`; the other scatters the width-2 rows
  `norm e · x (srcRow e, ·)` and multiplies the result by `W1`.  Read at an entry `(n, k)` both are sums over the
  edges with `dst e = n`, and they agree by the linearity of such sums, every factor being a real number.
-/
import proofs.«110646_j89292370084484_2_alg».proof.KernelIdeal
import proofs.«110646_j89292370084484_2_alg».proof.Proof.Gen.KernelIdeal
import proofs.«110646_j89292370084484_2_alg».proof.Proof.RefReadP
import proofs.«110646_j89292370084484_2_alg».proof.Proof.Spec
import proofs.«110646_j89292370084484_2_alg».proof.Proof.Rows
import proofs.«110646_j89292370084484_2_alg».proof.Proof.Linear

noncomputable section

open scoped BigOperators

namespace Cert.Gcn

open Idealize.ShloMosaic Idealize.ShloMosaic.ValueIdx
open Cert.ReferenceIdeal Cert.ReferenceIdeal.Gen Cert.ReferenceIdeal.ReadP

/-- The node edge `e` gathers from: its source index, wrapped when negative, clamped into the node range. -/
def srcRow (x1 : IVec S2x2560000 32) (e : Fin 2660000) : Fin 100000 :=
  rowOf 100000 (by decide) (val_main_v37 (F := Ideal) x1) e

/-- The width-2 aggregate of the node features: entry `(n, q)` is the sum, over the edges whose scatter index is `n`,
    of the edge's weight times feature `q` of the node the edge gathers from (added to zero). -/
def aggX (x0 : S100000x2.Idx → EReal) (x1 : IVec S2x2560000 32) : S100000x2.Idx → EReal :=
  fun i => (0 : EReal) + ∑ e : Fin 2660000,
    if (val_main_v42 (F := Ideal) x1 (ix2 e 0)).toInt = ((i 0).val : Int)
    then val_main_v30 (F := Ideal) x1 (ix1 e) * x0 (ix2 (srcRow x1 e) (i 1))
    else 0

/-! ## The reference's width-32 scatter, read at an entry -/

theorem v43_def (x0 : S100000x2.Idx → EReal) (x1 : IVec S2x2560000 32) (x2 : S2x32.Idx → EReal) :
    val_main_v43 (F := Ideal) x0 x1 x2 = Ideal.hostScatterAdd
      (rowsScatter 100000 2660000 32 Cert.ReferenceIdeal.Facts₀.scatter_S100000x32_S2660000x1_S2660000x32_1_0_0_1_wf)
      (val_main_v41 (F := Ideal)) (val_main_v42 (F := Ideal) x1) (val_main_v40 (F := Ideal) x0 x1 x2) := rfl

theorem v41_apply (n : Fin 100000) (k : Fin 32) : val_main_v41 (F := Ideal) (ix2 n k) = (0 : EReal) := by
  rw [val_main_v41_apply, val_main_cst_8_apply, Ideal.ofBits_def]; exact Ideal.ofBits_zero_f32

theorem v43_apply (x0 : S100000x2.Idx → EReal) (x1 : IVec S2x2560000 32) (x2 : S2x32.Idx → EReal) (n : Fin 100000) (k : Fin 32) :
    val_main_v43 (F := Ideal) x0 x1 x2 (ix2 n k) = (0 : EReal) + ∑ e : Fin 2660000,
      if (val_main_v42 (F := Ideal) x1 (ix2 e 0)).toInt = (n.val : Int) then val_main_v40 (F := Ideal) x0 x1 x2 (ix2 e k) else 0 := by
  rw [v43_def]
  refine (hostScatterAdd_rows_apply _ _ _ _ n k).trans ?_
  rw [v41_apply]

theorem v38_def (x0 : S100000x2.Idx → EReal) (x1 : IVec S2x2560000 32) (x2 : S2x32.Idx → EReal) :
    val_main_v38 (F := Ideal) x0 x1 x2 = Host.gather
      (rowsGather 100000 2660000 32 Cert.ReferenceIdeal.Facts₀.gather_S100000x32_S2660000x1_S2660000x32_1_0_n_n_0_1_132_wf)
      (val_main_v0 (F := Ideal) x0 x2) (val_main_v37 (F := Ideal) x1) := rfl

theorem v38_apply (x0 : S100000x2.Idx → EReal) (x1 : IVec S2x2560000 32) (x2 : S2x32.Idx → EReal) (e : Fin 2660000) (k : Fin 32) :
    val_main_v38 (F := Ideal) x0 x1 x2 (ix2 e k) = ∑ q : Fin 2, x0 (ix2 (srcRow x1 e) q) * x2 (ix2 q k) := by
  rw [v38_def, gather_rows_apply (by decide), val_main_v0_apply]
  refine Finset.sum_congr rfl fun q _ => ?_
  have el : lidx_main_v0 (ix2 (rowOf 100000 (by decide) (val_main_v37 (F := Ideal) x1) e) k) q
      = ix2 (srcRow x1 e) q :=
    funext fun a => Fin.ext (by match a with | ⟨0, _⟩ => rfl | ⟨1, _⟩ => rfl)
  have er : ridx_main_v0 (ix2 (rowOf 100000 (by decide) (val_main_v37 (F := Ideal) x1) e) k) q = ix2 q k :=
    funext fun a => Fin.ext (by match a with | ⟨0, _⟩ => rfl | ⟨1, _⟩ => rfl)
  rw [el, er]

theorem v39_apply (x1 : IVec S2x2560000 32) (e : Fin 2660000) (k : Fin 32) :
    val_main_v39 (F := Ideal) x1 (ix2 e k) = val_main_v30 (F := Ideal) x1 (ix1 e) := by
  rw [val_main_v39_apply, val_main_v31_apply]
  have e31 : idx_main_v31 (idx_main_v39 (ix2 e k)) = ix1 e :=
    funext fun a => Fin.ext (by match a with | ⟨0, _⟩ => rfl)
  rw [e31]

theorem v40_apply (x0 : S100000x2.Idx → EReal) (x1 : IVec S2x2560000 32) (x2 : S2x32.Idx → EReal) (e : Fin 2660000) (k : Fin 32) :
    val_main_v40 (F := Ideal) x0 x1 x2 (ix2 e k)
      = val_main_v30 (F := Ideal) x1 (ix1 e) * ∑ q : Fin 2, x0 (ix2 (srcRow x1 e) q) * x2 (ix2 q k) := by
  rw [val_main_v40_apply, v39_apply, v38_apply]
  rfl

/-! ## The two orders agree -/

/-- The reference's width-32 scatter is the product of the width-2 aggregate with `W1`, when the features, the
    weights of the edges and `W1` are real. -/
theorem layer1_eq (x0 : S100000x2.Idx → EReal) (x1 : IVec S2x2560000 32) (x2 : S2x32.Idx → EReal)
    (hx0 : ∀ i, ∃ r : ℝ, x0 i = (r : EReal)) (hx2 : ∀ i, ∃ r : ℝ, x2 i = (r : EReal))
    (hnorm : ∀ e, ∃ r : ℝ, val_main_v30 (F := Ideal) x1 e = (r : EReal)) :
    val_main_v43 (F := Ideal) x0 x1 x2 = proj (aggX x0 x1) x2 := by
  funext i
  obtain ⟨n, k, rfl⟩ : ∃ (n : Fin 100000) (k : Fin 32), i = ix2 n k := ⟨i 0, i 1, eq_ix2 i⟩
  rw [proj_apply, v43_apply]
  simp only [v40_apply]
  exact agg_linear (fun e : Fin 2660000 => (val_main_v42 (F := Ideal) x1 (ix2 e 0)).toInt = (n.val : Int))
    (fun e => val_main_v30 (F := Ideal) x1 (ix1 e)) (fun e => hnorm (ix1 e))
    (fun e q => x0 (ix2 (srcRow x1 e) q)) (fun e q => hx0 _)
    (fun q => x2 (ix2 q k)) (fun q => hx2 _)

end Cert.Gcn

end
-- ==== Proof.Layer1K.lean ====
/-
  The width-2 aggregate as the kernel's host side computes it.

  Before the dense kernel runs, the host scatters the rows `norm e · x (srcRow e, ·)` into a zero array of width 2.
  Read at an entry `(n, q)` this is the sum over the edges whose scatter index is `n` of `norm e · x (srcRow e, q)`,
  which is the aggregate `aggX` the linearity argument speaks of.
-/
import proofs.«110646_j89292370084484_2_alg».proof.Proof.Layer1
import Idealize.ShloMosaic.Lib.Pipeline.Value

noncomputable section

open scoped BigOperators

namespace Cert.Gcn

open Idealize.ShloMosaic Idealize.ShloMosaic.ValueIdx
open Cert.ReferenceIdeal Cert.ReferenceIdeal.Gen Cert.ReferenceIdeal.ReadP

/-- The host operations that produce the dense kernel's first operand, composed, at any float instance: a scatter,
    into zeros of width 2, of the edge weights (broadcast along the row) times the gathered feature rows. -/
def aggT {F : FTy → Type} [FloatOps F] (x0 : FVec F Cert.KernelIdeal.S100000x2 .f32) (x1 : IVec S2x2560000 32) :
    FVec F Cert.KernelIdeal.S100000x2 .f32 :=
  Host.scatterAdd Cert.KernelIdeal.scatter_S100000x2_S2660000x1_S2660000x2_1_0_0_1
    (broadcastInDim Cert.KernelIdeal.S100000x2 ![] Cert.KernelIdeal.Facts₀.bcast_S_S100000x2
      (constant (F := F) Cert.KernelIdeal.S_ .f32 0x00000000#32))
    (val_main_v42 (F := F) x1)
    (mulf (broadcastInDim Cert.KernelIdeal.S2660000x2 ![0, 1] Cert.KernelIdeal.Facts₀.bcast_S2660000x1_S2660000x2_0_1
        (val_main_v31 (F := F) x1))
      (Host.gather Cert.KernelIdeal.gather_S100000x2_S2660000x1_S2660000x2_1_0_n_n_0_1_12 x0 (val_main_v37 (F := F) x1)))

/-- The zero array the scatter adds into. -/
def zeros2 : (⟨2, ![100000, 2]⟩ : Shape).Idx → EReal :=
  broadcastInDim Cert.KernelIdeal.S100000x2 ![] Cert.KernelIdeal.Facts₀.bcast_S_S100000x2
    (constant (F := Ideal) Cert.KernelIdeal.S_ .f32 0x00000000#32)

/-- The rows the scatter adds: weight times gathered features. -/
def updX (x0 : S100000x2.Idx → EReal) (x1 : IVec S2x2560000 32) : (⟨2, ![2660000, 2]⟩ : Shape).Idx → EReal :=
  mulf (F := Ideal) (φ := .f32) (broadcastInDim Cert.KernelIdeal.S2660000x2 ![0, 1] Cert.KernelIdeal.Facts₀.bcast_S2660000x1_S2660000x2_0_1
      (val_main_v31 (F := Ideal) x1))
    (Host.gather (rowsGather 100000 2660000 2 Cert.KernelIdeal.Facts₀.gather_S100000x2_S2660000x1_S2660000x2_1_0_n_n_0_1_12_wf)
      x0 (val_main_v37 (F := Ideal) x1))

theorem aggT_def (x0 : S100000x2.Idx → EReal) (x1 : IVec S2x2560000 32) :
    aggT (F := Ideal) x0 x1 = Ideal.hostScatterAdd
      (rowsScatter 100000 2660000 2 Cert.KernelIdeal.Facts₀.scatter_S100000x2_S2660000x1_S2660000x2_1_0_0_1_wf)
      zeros2 (val_main_v42 (F := Ideal) x1) (updX x0 x1) := rfl

theorem zeros2_apply (n : Fin 100000) (q : Fin 2) : zeros2 (ix2 n q) = (0 : EReal) := by
  unfold zeros2
  rw [broadcastInDim_apply _ _ _ _ ix0 (fun a => a.elim0), constant_apply]
  exact Ideal.ofBits_zero_f32

theorem updX_apply (x0 : S100000x2.Idx → EReal) (x1 : IVec S2x2560000 32) (e : Fin 2660000) (q : Fin 2) :
    updX x0 x1 (ix2 e q) = val_main_v30 (F := Ideal) x1 (ix1 e) * x0 (ix2 (srcRow x1 e) q) := by
  unfold updX
  rw [mulf_apply, broadcastInDim_apply _ Cert.KernelIdeal.Facts₀.bcast_S2660000x1_S2660000x2_0_1 _ (ix2 e q) (ix2 e 0) (fun a => by
    match a with
    | ⟨0, _⟩ => show (e : Fin 2660000).val = if (2660000 : Nat) = 1 then 0 else e.val; rw [if_neg (by decide)]
    | ⟨1, _⟩ => show 0 = if (1 : Nat) = 1 then 0 else q.val; rw [if_pos rfl]),
    val_main_v31_apply, gather_rows_apply (by decide)]
  have e31 : idx_main_v31 (ix2 e 0) = ix1 e :=
    funext fun a => Fin.ext (by match a with | ⟨0, _⟩ => rfl)
  rw [e31]
  rfl

theorem aggT_apply (x0 : S100000x2.Idx → EReal) (x1 : IVec S2x2560000 32) (n : Fin 100000) (q : Fin 2) :
    aggT (F := Ideal) x0 x1 (ix2 n q) = (0 : EReal) + ∑ e : Fin 2660000,
      if (val_main_v42 (F := Ideal) x1 (ix2 e 0)).toInt = (n.val : Int) then updX x0 x1 (ix2 e q) else 0 := by
  rw [aggT_def]
  refine (hostScatterAdd_rows_apply _ _ _ _ n q).trans ?_
  rw [zeros2_apply]

theorem aggX_apply (x0 : S100000x2.Idx → EReal) (x1 : IVec S2x2560000 32) (n : Fin 100000) (q : Fin 2) :
    aggX x0 x1 (ix2 n q) = (0 : EReal) + ∑ e : Fin 2660000,
      if (val_main_v42 (F := Ideal) x1 (ix2 e 0)).toInt = (n.val : Int)
      then val_main_v30 (F := Ideal) x1 (ix1 e) * x0 (ix2 (srcRow x1 e) q) else 0 := rfl

/-- The host's width-2 scatter is the aggregate. -/
theorem aggT_eq (x0 : S100000x2.Idx → EReal) (x1 : IVec S2x2560000 32) : aggT (F := Ideal) x0 x1 = aggX x0 x1 := by
  funext i
  obtain ⟨n, q, rfl⟩ : ∃ (n : Fin 100000) (q : Fin 2), i = ix2 n q := ⟨i 0, i 1, eq_ix2 i⟩
  rw [aggT_apply, aggX_apply]
  simp only [updX_apply]

end Cert.Gcn

end
-- ==== Proof.Bridge.lean ====
/-
  The two programs' host sides are the same functions of the edge list.

  Both programs build the source and target index columns, the degrees, the edge weights and the last aggregation by
  the same operations in the same order; only the names differ.  So the kernel program's first aggregation is the
  scatter `aggT`, and its last stage is the reference's last stage, at every float instance, by unfolding the names.
-/
import proofs.«110646_j89292370084484_2_alg».proof.Proof.KernelHost
import proofs.«110646_j89292370084484_2_alg».proof.Proof.Layer1K
import proofs.«110646_j89292370084484_2_alg».proof.Proof.RefValue

noncomputable section

namespace Cert.Gcn

open Idealize.ShloMosaic
open Cert.ReferenceIdeal Cert.ReferenceIdeal.Gen Cert.ReferenceIdeal.ReadP

variable {F : FTy → Type} [FloatOps F]

/-- The reference's last stage at any float instance: gather the node column at the edges' sources, weight each
    edge, scatter-add at the edges' targets into zeros, add the bias. -/
def tailG (x1 : IVec S2x2560000 32) (x5 : FVec F S1 .f32) (P : FVec F S100000x1 .f32) : FVec F S100000x1 .f32 :=
  addf (Host.scatterAdd scatter_S100000x1_S2660000x1_S2660000x1_1_0_0_1 (val_main_v88 (F := F))
      (val_main_v89 (F := F) x1)
      (mulf (val_main_v79 (F := F) x1)
        (Host.gather gather_S100000x1_S2660000x1_S2660000x1_1_0_n_n_0_1_11 P (val_main_v85 (F := F) x1))))
    (val_main_v92 (F := F) x5)

theorem ref_tail_eq (x1 : IVec S2x2560000 32) (x5 : FVec Ideal S1 .f32) (P : FVec Ideal S100000x1 .f32) :
    Cert.ReferenceIdeal.HandValue.tail x1 x5 P = tailG (F := Ideal) x1 x5 P := rfl

set_option maxHeartbeats 400000 in
theorem kernel_tail_eq (x1 : IVec S2x2560000 32) (x5 : FVec F S1 .f32) (P : FVec F S100000x1 .f32) :
    Cert.KernelIdeal.HandValue.tail (F := F) x1 x5 P = tailG (F := F) x1 x5 P := rfl

set_option maxHeartbeats 400000 in
theorem kernel_agg_eq (x0 : FVec F S100000x2 .f32) (x1 : IVec S2x2560000 32) :
    Cert.KernelIdeal.HandValue.agg (F := F) x0 x1 = aggT (F := F) x0 x1 := rfl

end Cert.Gcn

end
-- ==== Proof.lean ====
/-
  A two-layer graph convolution, computed two ways, gives one result on the extended reals.

  Both programs build from the edge list (with one self loop per node appended) the degree of every node, its
  inverse square root, and the weight `norm e` of every edge; a layer sends a node array `h` to the array whose row
  `n` is the sum over the edges `e` into `n` of `norm e · h (src e)`.  The reference applies the first weight matrix to
  the node features and then aggregates rows of width 32; the kernel program aggregates the features themselves
  (rows of width 2) and applies the first weight matrix afterwards, inside its dense kernel, which also adds the
  bias, takes the positive part and applies the second weight matrix.  The last aggregation and the second bias are
  the same operations in both programs.

  The two first layers agree because aggregation is linear: a finite sum of real multiples commutes with the product
  by a real matrix.  On the extended reals this needs every term to be a real number, which the precondition gives
  for the features and the first weight matrix, and which holds of the edge weights whatever the indices are (a
  degree is a finite sum of ones, so its inverse square root is a real or is replaced by zero).  Everything after
  the first layer is the same function of the first layer's output in both programs.

  The frames of the two kernel programs are the generated ones; the reference's frame is its run with the result
  dropped; nothing was rewritten when the kernel program was idealized, so there is nothing to preserve.
-/
import proofs.«110646_j89292370084484_2_alg».proof.Defs
import proofs.«110646_j89292370084484_2_alg».proof.Proof.Gen.Kernel
import proofs.«110646_j89292370084484_2_alg».proof.Proof.Gen.Kernel.Skeleton
import proofs.«110646_j89292370084484_2_alg».proof.Proof.Gen.Kernel.Launch
import proofs.«110646_j89292370084484_2_alg».proof.Proof.Gen.Kernel.Points
import proofs.«110646_j89292370084484_2_alg».proof.Proof.Gen.Kernel.Frame
import proofs.«110646_j89292370084484_2_alg».proof.Proof.Gen.KernelIdeal
import proofs.«110646_j89292370084484_2_alg».proof.Proof.Gen.KernelIdeal.Skeleton
import proofs.«110646_j89292370084484_2_alg».proof.Proof.Gen.KernelIdeal.Launch
import proofs.«110646_j89292370084484_2_alg».proof.Proof.Gen.KernelIdeal.Points
import proofs.«110646_j89292370084484_2_alg».proof.Proof.Gen.KernelIdeal.Frame
import proofs.«110646_j89292370084484_2_alg».proof.Proof.Gen.ReferenceIdeal
import proofs.«110646_j89292370084484_2_alg».proof.Proof.RefRunP
import proofs.«110646_j89292370084484_2_alg».proof.Proof.RefReadP
import proofs.«110646_j89292370084484_2_alg».proof.Proof.Gen.Pre_finite_inputs
import proofs.«110646_j89292370084484_2_alg».proof.Proof.KernelValue
import proofs.«110646_j89292370084484_2_alg».proof.Proof.RefRun
import proofs.«110646_j89292370084484_2_alg».proof.Proof.RefFinite
import proofs.«110646_j89292370084484_2_alg».proof.Proof.PreFinite
import proofs.«110646_j89292370084484_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The two results are one function of the argument arrays, when the features and the first weights are real:
    the first layers agree by linearity, the rest is the same operations. -/
theorem values_agree (x0 : FVec Ideal Cert.ReferenceIdeal.S100000x2 .f32) (x1 : IVec Cert.ReferenceIdeal.S2x2560000 32)
    (x2 : FVec Ideal Cert.ReferenceIdeal.S2x32 .f32) (x3 : FVec Ideal Cert.ReferenceIdeal.S32 .f32)
    (x4 : FVec Ideal Cert.ReferenceIdeal.S32x1 .f32) (x5 : FVec Ideal Cert.ReferenceIdeal.S1 .f32)
    (hx0 : ∀ i, ∃ r : ℝ, x0 i = (r : EReal)) (hx2 : ∀ i, ∃ r : ℝ, x2 i = (r : EReal)) :
    Cert.ReferenceIdeal.HandValue.tail x1 x5
        (Cert.Gcn.head (Cert.ReferenceIdeal.ReadP.val_main_v43 (F := Ideal) x0 x1 x2) x3 x4)
      = Cert.KernelIdeal.HandValue.tail (F := Ideal) x1 x5
        (Cert.Gcn.head (Cert.Gcn.proj (Cert.KernelIdeal.HandValue.agg (F := Ideal) x0 x1) x2) x3 x4) := by
  rw [Cert.Gcn.layer1_eq x0 x1 x2 hx0 hx2 (Cert.ReferenceIdeal.HandValue.norm_real x1), ← Cert.Gcn.aggT_eq,
    Cert.Gcn.ref_tail_eq, Cert.Gcn.kernel_tail_eq, Cert.Gcn.kernel_agg_eq]

theorem algebraic : Cert.algebraic_KernelIdeal_ReferenceIdeal := by
  intro m ρ m' ρ' hpre hagree
  refine ⟨_, Cert.KernelIdeal.HandValue.run m ρ, ?_⟩
  refine (θ_run Cert.ReferenceIdeal.defs _ _).mono (fun _ h c => ⟨(h c).1.trans ?_, (h c).2⟩)
    (Cert.ReferenceIdeal.HandValue.run m' ρ')
  obtain ⟨h0, h1, h2, h3, h4, h5⟩ := hagree c
  rw [h0, h1, h2, h3, h4, h5]
  obtain ⟨hx0, hx2⟩ := Cert.ReferenceIdeal.HandValue.pre_real _ _ _ _ _ _ (hpre c)
  exact values_agree _ _ _ _ _ _ hx0 hx2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
